-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1250000 : Shape := ⟨2, ![2, 1250000]⟩
abbrev S50000 : Shape := ⟨1, ![50000]⟩
abbrev S128x64 : Shape := ⟨2, ![128, 64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S64x10 .f32) (main_arg7 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x10 .f32 := Host.absf main_arg6
  let main_cst_6 : FVec F S_ .f32 := constant S_ .f32 0x7F800000#32
  let main_v20 : FVec F S64x10 .f32 := broadcastInDim S64x10 ![] bcast_S_S64x10 main_cst_6
  let main_v21 : IVec S64x10 1 := cmpf .olt main_v19 main_v20
  let main_c_7 : IVec S_ 1 := constantI S_ 1 1#1
  let main_v22 : IVec S_ 1 := (fun x v => Host.reduce IntOp.andi x v reducesTo_S64x10_S_d0_1 h_S_) main_v21 main_c_7
  let main_v23 : IVec S_ 1 := andi main_v18 main_v22
  let main_v24 : FVec F S10 .f32 := Host.absf main_arg7
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S50000x128 .f32) (main_arg1 : IVec S2x1250000 32) (main_arg2 : IVec S50000 32) (main_arg3 : FVec F S128x64 .f32) (main_arg4 : FVec F S64x64 .f32) (main_arg5 : FVec F S64x64 .f32) (main_arg6 : FVec F S64x10 .f32) (main_arg7 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_v13 main_v16
-- ==== Kernel.lean ====
abbrev S50000x128 : Shape := ⟨2, ![50000, 128]⟩
abbrev S2x1250000 : Shape := ⟨2, ![2, 1250000]⟩
abbrev S50000 : Shape := ⟨1, ![50000]⟩
abbrev S128x64 : Shape := ⟨2, ![128, 64]⟩
abbrev S64x64 : Shape := ⟨2, ![64, 64]⟩
abbrev S64x10 : Shape := ⟨2, ![64, 10]⟩
abbrev S10 : Shape := ⟨1, ![10]⟩
abbrev S1x1250000 : Shape := ⟨2, ![1, 1250000]⟩
abbrev S1250000 : Shape := ⟨1, ![1250000]⟩
abbrev S1300000 : Shape := ⟨1, ![1300000]⟩
abbrev S_ : Shape := ⟨0, ![]⟩
abbrev S1300000x1 : Shape := ⟨2, ![1300000, 1]⟩
abbrev S64 : Shape := ⟨1, ![64]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S1300000x64 : Shape := ⟨2, ![1300000, 64]⟩
abbrev S500x64 : Shape := ⟨2, ![500, 64]⟩
abbrev S50000x1 : Shape := ⟨2, ![50000, 1]⟩
abbrev S500 : Shape := ⟨1, ![500]⟩
abbrev S500x1 : Shape := ⟨2, ![500, 1]⟩
abbrev S1x10 : Shape := ⟨2, ![1, 10]⟩
abbrev S500x10 : Shape := ⟨2, ![500, 10]⟩

abbrev nBuf : Space → Nat
  | .hbm => 126
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x1250000, .i32⟩
  | .hbm, ⟨2, _⟩ => ⟨S50000, .i32⟩
  | .hbm, ⟨3, _⟩ => ⟨S128x64, .f32⟩
  | .hbm, ⟨4, _⟩ => ⟨S64x64, .f32⟩
  | .hbm, ⟨5, _⟩ => ⟨S64x64, .f32⟩
  | .hbm, ⟨6, _⟩ => ⟨S64x10, .f32⟩
  | .hbm, ⟨7, _⟩ => ⟨S10, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S50000, .i32⟩
  | .hbm, ⟨13, _⟩ => ⟨S1300000, .i32⟩
  | .hbm, ⟨14, _⟩ => ⟨S1300000, .i32⟩
  | .hbm, ⟨15, _⟩ => ⟨S_, .f32⟩
  | .hbm, ⟨16, _⟩ => ⟨S1300000, .f32⟩
  | .hbm, ⟨17, _⟩ => ⟨S_, .f32⟩
  | .hbm, ⟨18, _⟩ => ⟨S50000, .f32⟩
  | .hbm, ⟨19, _⟩ => ⟨S1300000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1300000, .i32⟩
  | .hbm, ⟨31, _⟩ => ⟨S1300000, .i1⟩
  | .hbm, ⟨32, _⟩ => ⟨S_, .i32⟩
  | .hbm, ⟨33, _⟩ => ⟨S1300000, .i32⟩
  | .hbm, ⟨34, _⟩ => ⟨S1300000, .i32⟩
  | .hbm, ⟨35, _⟩ => ⟨S1300000, .i32⟩
  | .hbm, ⟨36, _⟩ => ⟨S1300000x1, .i32⟩
  | .hbm, ⟨37, _⟩ => ⟨S1300000, .f32⟩
  | .hbm, ⟨38, _⟩ => ⟨S_, .i32⟩
  | .hbm, ⟨39, _⟩ => ⟨S1300000, .i32⟩
  | .hbm, ⟨40, _⟩ => ⟨S1300000, .i1⟩
  | .hbm, ⟨41, _⟩ => ⟨S_, .i32⟩
  | .hbm, ⟨42, _⟩ => ⟨S1300000, .i32⟩
  | .hbm, ⟨43, _⟩ => ⟨S1300000, .i32⟩
  | .hbm, ⟨44, _⟩ => ⟨S1300000, .i32⟩
  | .hbm, ⟨45, _⟩ => ⟨S1300000x1, .i32⟩
  | .hbm, ⟨46, _⟩ => ⟨S1300000, .f32⟩
  | .hbm, ⟨47, _⟩ => ⟨S1300000, .f32⟩
  | .hbm, ⟨48, _⟩ => ⟨S_, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S1x64, .f32⟩
  | .hbm, ⟨55, _⟩ => ⟨S50000x64, .f32⟩
  | .hbm, ⟨56, _⟩ => ⟨S_, .i32⟩
  | .hbm, ⟨57, _⟩ => ⟨S1300000, .i32⟩
  | .hbm, ⟨58, _⟩ => ⟨S1300000, .i1⟩
  | .hbm, ⟨59, _⟩ => ⟨S_, .i32⟩
  | .hbm, ⟨60, _⟩ => ⟨S1300000, .i32⟩
  | .hbm, ⟨61, _⟩ => ⟨S1300000, .i32⟩
  | .hbm, ⟨62, _⟩ => ⟨S1300000, .i32⟩
  | .hbm, ⟨63, _⟩ => ⟨S1300000x1, .i32⟩
  | .hbm, ⟨64, _⟩ => ⟨S1300000x64, .f32⟩
  | .hbm, ⟨65, _⟩ => ⟨S1300000x1, .f32⟩
  | .hbm, ⟨66, _⟩ => ⟨S1300000x64, .f32⟩
  | .hbm, ⟨67, _⟩ => ⟨S1300000x64, .f32⟩
  | .hbm, ⟨68, _⟩ => ⟨S_, .f32⟩
  | .hbm, ⟨69, _⟩ => ⟨S50000x64, .f32⟩
  | .hbm, ⟨70, _⟩ => ⟨S1300000x1, .i32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S_, .i32⟩
  | .hbm, ⟨75, _⟩ => ⟨S1300000, .i32⟩
  | .hbm, ⟨76, _⟩ => ⟨S1300000, .i1⟩
  | .hbm, ⟨77, _⟩ => ⟨S_, .i32⟩
  | .hbm, ⟨78, _⟩ => ⟨S1300000, .i32⟩
  | .hbm, ⟨79, _⟩ => ⟨S1300000, .i32⟩
  | .hbm, ⟨80, _⟩ => ⟨S1300000, .i32⟩
  | .hbm, ⟨81, _⟩ => ⟨S1300000x1, .i32⟩
  | .hbm, ⟨82, _⟩ => ⟨S1300000x64, .f32⟩
  | .hbm, ⟨83, _⟩ => ⟨S1300000x1, .f32⟩
  | .hbm, ⟨84, _⟩ => ⟨S1300000x64, .f32⟩
  | .hbm, ⟨85, _⟩ => ⟨S1300000x64, .f32⟩
  | .hbm, ⟨86, _⟩ => ⟨S_, .f32⟩
  | .hbm, ⟨87, _⟩ => ⟨S50000x64, .f32⟩
  | .hbm, ⟨88, _⟩ => ⟨S1300000x1, .i32⟩
  | .hbm, ⟨89, _⟩ => ⟨S50000x64, .f32⟩
  | .hbm, ⟨90, _⟩ => ⟨S1x64, .f32⟩
  | .hbm, ⟨91, _⟩ => ⟨S50000x64, .f32⟩
  | .hbm, ⟨92, _⟩ => ⟨S_, .i32⟩
  | .hbm, ⟨93, _⟩ => ⟨S1300000, .i32⟩
  | .hbm, ⟨94, _⟩ => ⟨S1300000, .i1⟩
  | .hbm, ⟨95, _⟩ => ⟨S_, .i32⟩
  | .hbm, ⟨96, _⟩ => ⟨S1300000, .i32⟩
  | .hbm, ⟨97, _⟩ => ⟨S1300000, .i32⟩
  | .hbm, ⟨98, _⟩ => ⟨S1300000, .i32⟩
  | .hbm, ⟨99, _⟩ => ⟨S1300000x1, .i32⟩
  | .hbm, ⟨100, _⟩ => ⟨S1300000x64, .f32⟩
  | .hbm, ⟨101, _⟩ => ⟨S1300000x1, .f32⟩
  | .hbm, ⟨102, _⟩ => ⟨S1300000x64, .f32⟩
  | .hbm, ⟨103, _⟩ => ⟨S1300000x64, .f32⟩
  | .hbm, ⟨104, _⟩ => ⟨S_, .f32⟩
  | .hbm, ⟨105, _⟩ => ⟨S50000x64, .f32⟩
  | .hbm, ⟨106, _⟩ => ⟨S1300000x1, .i32⟩
  | .hbm, ⟨107, _⟩ => ⟨S50000x64, .f32⟩
  | .hbm, ⟨108, _⟩ => ⟨S_, .f32⟩
  | .hbm, ⟨109, _⟩ => ⟨S500x64, .f32⟩
  | .hbm, ⟨110, _⟩ => ⟨S50000x1, .i32⟩
  | .hbm, ⟨111, _⟩ => ⟨S500x64, .f32⟩
  | .hbm, ⟨112, _⟩ => ⟨S_, .f32⟩
  | .hbm, ⟨113, _⟩ => ⟨S50000, .f32⟩
  | .hbm, ⟨114, _⟩ => ⟨S_, .f32⟩
  | .hbm, ⟨115, _⟩ => ⟨S500, .f32⟩
  | .hbm, ⟨116, _⟩ => ⟨S50000x1, .i32⟩
  | .hbm, ⟨117, _⟩ => ⟨S500, .f32⟩
  | .hbm, ⟨118, _⟩ => ⟨S_, .f32⟩
  | .hbm, ⟨119, _⟩ => ⟨S500, .f32⟩
  | .hbm, ⟨120, _⟩ => ⟨S500, .f32⟩
  | .hbm, ⟨121, _⟩ => ⟨S500x1, .f32⟩
  | .hbm, ⟨122, _⟩ => ⟨S500x64, .f32⟩
  | .hbm, ⟨123, _⟩ => ⟨S500x64, .f32⟩
  | .hbm, ⟨124, _⟩ => ⟨S1x10, .f32⟩
  | .hbm, ⟨125, _⟩ => ⟨S500x10, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S500x64, .f32⟩
  | .local _ .vmem, ⟨19, _⟩ => ⟨S64x10, .f32⟩
  | .local _ .vmem, ⟨20, _⟩ => ⟨S1x10, .f32⟩
  | .local _ .vmem, ⟨21, _⟩ => ⟨S500x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_9 : Ref sig .tc := ⟨.hbm, 56, rfl⟩
abbrev main_v35 : Ref sig .tc := ⟨.hbm, 57, rfl⟩
abbrev main_v36 : Ref sig .tc := ⟨.hbm, 58, rfl⟩
abbrev main_c_10 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_v50 : Ref sig .tc := ⟨.hbm, 75, rfl⟩
abbrev main_v51 : Ref sig .tc := ⟨.hbm, 76, rfl⟩
abbrev main_c_13 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_17 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_18 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_19 : Ref sig .tc := ⟨.hbm, 112, rfl⟩
abbrev main_v81 : Ref sig .tc := ⟨.hbm, 113, rfl⟩
abbrev main_cst_20 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_21 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem2_0 : DmaSem sig := 20
abbrev cc3_sem3_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S500x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S64x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S500x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  concatenates_S1250000_S50000_S1300000_d0 : Shape.Concatenates [S1250000, S50000] S1300000 0
  bcast_S_S1300000 : S_.BroadcastsInDim S1300000 (![] : Fin 0 → Fin S1300000.rank)
  bcast_S_S50000 : S_.BroadcastsInDim S50000 (![] : Fin 0 → Fin S50000.rank)
  bcast_S1300000_S1300000x1_0 : S1300000.BroadcastsInDim S1300000x1 (![0] : Fin 1 → Fin S1300000x1.rank)
  bcast_S_S64 : S_.BroadcastsInDim S64 (![] : Fin 0 → Fin S64.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1300000x1_S1300000x64_0_1 : S1300000x1.BroadcastsInDim S1300000x64 (![0, 1] : Fin 2 → Fin S1300000x64.rank)
  bcast_S_S50000x64 : S_.BroadcastsInDim S50000x64 (![] : Fin 0 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S_S500x64 : S_.BroadcastsInDim S500x64 (![] : Fin 0 → Fin S500x64.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x64_0_1 : S500x1.BroadcastsInDim S500x64 (![0, 1] : Fin 2 → Fin S500x64.rank)
  shapeCasts_S10_S1x10 : S10.ShapeCasts S1x10
  inb_S500x64_S500x64_0_0 : ∀ a, (![0, 0] : Fin 2 → Nat) a + S500x64.size a ≤ S500x64.size a
  h_S500x64 : 0 < S500x64.numel
  shapeCasts_S500x64_S500x64 : S500x64.ShapeCasts S500x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S500x10 : S1x10.Broadcasts S500x10
  inb_S500x10_S500x10_0_0 : ∀ a, (![0, 0] : Fin 2 → Nat) a + S500x10.size a ≤ S500x10.size a
  h_S500x10 : 0 < S500x10.numel
  scatter_S50000_S1300000x1_S1300000_n_0_0_1_wf : ScatterDims.WF S50000 S1300000x1 S1300000 [] [0] [0] 1
  gather_S50000_S1300000x1_S1300000_n_0_n_n_0_1_1_wf : GatherDims.WF S50000 S1300000x1 S1300000 [] [0] [] [0] [] 1 ![1]
  dot_S5000x128_S128x64_S5000x64_1_0_0_1_n_n_wf : DotDims.WF S5000x128 S128x64 S5000x64 [1] [0] [0] [1] [] []
  gather_S50000x64_S1300000x1_S1300000x64_1_0_n_n_0_1_164_wf : GatherDims.WF S50000x64 S1300000x1 S1300000x64 [1] [0] [] [0] [] 1 ![1, 64]
  scatter_S50000x64_S1300000x1_S1300000x64_1_0_0_1_wf : ScatterDims.WF S50000x64 S1300000x1 S1300000x64 [1] [0] [0] 1
  dot_S5000x64_S64x64_S5000x64_1_0_0_1_n_n_wf : DotDims.WF S5000x64 S64x64 S5000x64 [1] [0] [0] [1] [] []
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1
  dot_S500x64_S64x10_S500x10_1_0_0_1_n_n_wf : DotDims.WF S500x64 S64x10 S500x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S500x64.size a ≤ S500x64.size a
  hwx3_0 : ∀ i : grid3.Coords, EltTy.bits .f32 = 32 ∨ (Rect.block (s := S500x64) S500x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x10.size a ≤ S64x10.size a
  hwx3_1 : ∀ i : grid3.Coords, EltTy.bits .f32 = 32 ∨ (Rect.block (s := S64x10) S64x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S500x10.size a ≤ S500x10.size a
  hwx3_3 : ∀ i : grid3.Coords, EltTy.bits .f32 = 32 ∨ (Rect.block (s := S500x10) S500x10.size (cc3_transform_3 i) (hinb3_3 i)).WholeWords (EltTy.packing .f32)

variable [Facts₀]

def scatter_S50000_S1300000x1_S1300000_n_0_0_1 : ScatterDims S50000 S1300000x1 S1300000 where
  updateWindowDims := []
  insertedWindowDims := [0]
  scatterDimsToOperandDims := [0]
  indexVectorDim := 1
  wf := scatter_S50000_S1300000x1_S1300000_n_0_0_1_wf
def gather_S50000_S1300000x1_S1300000_n_0_n_n_0_1_1 : GatherDims S50000 S1300000x1 S1300000 where
  offsetDims := []
  collapsedSliceDims := [0]
  operandBatchingDims := []
  startIndicesBatchingDims := []
  startIndexMap := [0]
  indexVectorDim := 1
  sliceSizes := ![1]
  wf := gather_S50000_S1300000x1_S1300000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1300000x1_S1300000x64_1_0_n_n_0_1_164 : GatherDims S50000x64 S1300000x1 S1300000x64 where
  offsetDims := [1]
  collapsedSliceDims := [0]
  operandBatchingDims := []
  startIndicesBatchingDims := []
  startIndexMap := [0]
  indexVectorDim := 1
  sliceSizes := ![1, 64]
  wf := gather_S50000x64_S1300000x1_S1300000x64_1_0_n_n_0_1_164_wf
def scatter_S50000x64_S1300000x1_S1300000x64_1_0_0_1 : ScatterDims S50000x64 S1300000x1 S1300000x64 where
  updateWindowDims := [1]
  insertedWindowDims := [0]
  scatterDimsToOperandDims := [0]
  indexVectorDim := 1
  wf := scatter_S50000x64_S1300000x1_S1300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x64_S64x10_S500x10_1_0_0_1_n_n : DotDims S500x64 S64x10 S500x10 where
  lhsContracting := [1]
  rhsContracting := [0]
  lhsNonContracting := [0]
  rhsNonContracting := [1]
  lhsBatch := []
  rhsBatch := []
  wf := dot_S500x64_S64x10_S500x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v89) S500x64.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v90) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91) S500x10.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1250000 : Shape := ⟨2, ![2, 1250000]⟩
abbrev S50000 : Shape := ⟨1, ![50000]⟩
abbrev S128x64 : Shape := ⟨2, ![128, 64]⟩
abbrev S64x64 : Shape := ⟨2, ![64, 64]⟩
abbrev S64x10 : Shape := ⟨2, ![64, 10]⟩
abbrev S10 : Shape := ⟨1, ![10]⟩
abbrev S1x1250000 : Shape := ⟨2, ![1, 1250000]⟩
abbrev S1250000 : Shape := ⟨1, ![1250000]⟩
abbrev S50000x64 : Shape := ⟨2, ![50000, 64]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S500x64 : Shape := ⟨2, ![500, 64]⟩
abbrev S50000x1 : Shape := ⟨2, ![50000, 1]⟩
abbrev S500 : Shape := ⟨1, ![500]⟩
abbrev S500x1 : Shape := ⟨2, ![500, 1]⟩
abbrev S500x10 : Shape := ⟨2, ![500, 10]⟩
abbrev S1x10 : Shape := ⟨2, ![1, 10]⟩

abbrev nBuf : Space → Nat
  | .hbm => 197
  | .vmem => 0
  | .smem => 0
  | _ => 0

abbrev hbmTy0_0 (i : Nat) : BufTy := match i % 128 with
  | 0 => ⟨S50000x128, .f32⟩
  | 1 => ⟨S2x1250000, .i32⟩
  | 2 => ⟨S50000, .i32⟩
  | 3 => ⟨S128x64, .f32⟩
  | 4 => ⟨S64x64, .f32⟩
  | 5 => ⟨S64x64, .f32⟩
  | 6 => ⟨S64x10, .f32⟩
  | 7 => ⟨S10, .f32⟩
  | 8 => ⟨S1x1250000, .i32⟩
  | 9 => ⟨S1250000, .i32⟩
  | 10 => ⟨S1x1250000, .i32⟩
  | 11 => ⟨S1250000, .i32⟩
  | 12 => ⟨S50000x64, .f32⟩
  | 13 => ⟨S50000, .i32⟩
  | 14 => ⟨S1300000, .i32⟩
  | 15 => ⟨S1300000, .i32⟩
  | 16 => ⟨S_, .f32⟩
  | 17 => ⟨S1300000, .f32⟩
  | 18 => ⟨S_, .f32⟩
  | 19 => ⟨S50000, .f32⟩
  | 20 => ⟨S1300000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S1300000, .i32⟩
  | 32 => ⟨S1300000, .i1⟩
  | 33 => ⟨S_, .i32⟩
  | 34 => ⟨S1300000, .i32⟩
  | 35 => ⟨S1300000, .i32⟩
  | 36 => ⟨S1300000, .i32⟩
  | 37 => ⟨S1300000x1, .i32⟩
  | 38 => ⟨S1300000, .f32⟩
  | 39 => ⟨S_, .i32⟩
  | 40 => ⟨S1300000, .i32⟩
  | 41 => ⟨S1300000, .i1⟩
  | 42 => ⟨S_, .i32⟩
  | 43 => ⟨S1300000, .i32⟩
  | 44 => ⟨S1300000, .i32⟩
  | 45 => ⟨S1300000, .i32⟩
  | 46 => ⟨S1300000x1, .i32⟩
  | 47 => ⟨S1300000, .f32⟩
  | 48 => ⟨S1300000, .f32⟩
  | 49 => ⟨S_, .i32⟩
  | 50 => ⟨S1300000, .i32⟩
  | 51 => ⟨S1300000, .i1⟩
  | 52 => ⟨S_, .i32⟩
  | 53 => ⟨S1300000, .i32⟩
  | 54 => ⟨S1300000, .i32⟩
  | 55 => ⟨S1300000, .i32⟩
  | 56 => ⟨S1300000x1, .i32⟩
  | 57 => ⟨S1300000x64, .f32⟩
  | 58 => ⟨S1300000x1, .f32⟩
  | 59 => ⟨S1300000x64, .f32⟩
  | 60 => ⟨S1300000x64, .f32⟩
  | 61 => ⟨S_, .f32⟩
  | 62 => ⟨S50000x64, .f32⟩
  | 63 => ⟨S1300000x1, .i32⟩
  | 64 => ⟨S50000x64, .f32⟩
  | 65 => ⟨S_, .f32⟩
  | 66 => ⟨S50000x64, .f32⟩
  | 67 => ⟨S50000x64, .f32⟩
  | 68 => ⟨S50000x64, .f32⟩
  | 69 => ⟨S50000, .i32⟩
  | 70 => ⟨S1300000, .i32⟩
  | 71 => ⟨S1300000, .i32⟩
  | 72 => ⟨S_, .f32⟩
  | 73 => ⟨S1300000, .f32⟩
  | 74 => ⟨S_, .f32⟩
  | 75 => ⟨S50000, .f32⟩
  | 76 => ⟨S1300000x1, .i32⟩
  | 77 => ⟨S50000, .f32⟩
  | 78 => ⟨S_, .f32⟩
  | 79 => ⟨S50000, .f32⟩
  | 80 => ⟨S50000, .i1⟩
  | 81 => ⟨S50000, .f32⟩
  | 82 => ⟨S_, .f32⟩
  | 83 => ⟨S_, .f32⟩
  | 84 => ⟨S50000, .f32⟩
  | 85 => ⟨S50000, .f32⟩
  | 86 => ⟨S_, .i32⟩
  | 87 => ⟨S1300000, .i32⟩
  | 88 => ⟨S1300000, .i1⟩
  | 89 => ⟨S_, .i32⟩
  | 90 => ⟨S1300000, .i32⟩
  | 91 => ⟨S1300000, .i32⟩
  | 92 => ⟨S1300000, .i32⟩
  | 93 => ⟨S1300000x1, .i32⟩
  | 94 => ⟨S1300000, .f32⟩
  | 95 => ⟨S_, .i32⟩
  | 96 => ⟨S1300000, .i32⟩
  | 97 => ⟨S1300000, .i1⟩
  | 98 => ⟨S_, .i32⟩
  | 99 => ⟨S1300000, .i32⟩
  | 100 => ⟨S1300000, .i32⟩
  | 101 => ⟨S1300000, .i32⟩
  | 102 => ⟨S1300000x1, .i32⟩
  | 103 => ⟨S1300000, .f32⟩
  | 104 => ⟨S1300000, .f32⟩
  | 105 => ⟨S_, .i32⟩
  | 106 => ⟨S1300000, .i32⟩
  | 107 => ⟨S1300000, .i1⟩
  | 108 => ⟨S_, .i32⟩
  | 109 => ⟨S1300000, .i32⟩
  | 110 => ⟨S1300000, .i32⟩
  | 111 => ⟨S1300000, .i32⟩
  | 112 => ⟨S1300000x1, .i32⟩
  | 113 => ⟨S1300000x64, .f32⟩
  | 114 => ⟨S1300000x1, .f32⟩
  | 115 => ⟨S1300000x64, .f32⟩
  | 116 => ⟨S1300000x64, .f32⟩
  | 117 => ⟨S_, .f32⟩
  | 118 => ⟨S50000x64, .f32⟩
  | 119 => ⟨S1300000x1, .i32⟩
  | 120 => ⟨S50000x64, .f32⟩
  | 121 => ⟨S_, .f32⟩
  | 122 => ⟨S50000x64, .f32⟩
  | 123 => ⟨S50000x64, .f32⟩
  | 124 => ⟨S50000x64, .f32⟩
  | 125 => ⟨S50000, .i32⟩
  | 126 => ⟨S1300000, .i32⟩
  | 127 => ⟨S1300000, .i32⟩
  | _ => ⟨S50000x128, .f32⟩

abbrev hbmTy0_1 (i : Nat) : BufTy := match i % 128 with
  | 0 => ⟨S_, .f32⟩
  | 1 => ⟨S1300000, .f32⟩
  | 2 => ⟨S_, .f32⟩
  | 3 => ⟨S50000, .f32⟩
  | 4 => ⟨S1300000x1, .i32⟩
  | 5 => ⟨S50000, .f32⟩
  | 6 => ⟨S_, .f32⟩
  | 7 => ⟨S50000, .f32⟩
  | 8 => ⟨S50000, .i1⟩
  | 9 => ⟨S50000, .f32⟩
  | 10 => ⟨S_, .f32⟩
  | 11 => ⟨S_, .f32⟩
  | 12 => ⟨S50000, .f32⟩
  | 13 => ⟨S50000, .f32⟩
  | 14 => ⟨S_, .i32⟩
  | 15 => ⟨S1300000, .i32⟩
  | 16 => ⟨S1300000, .i1⟩
  | 17 => ⟨S_, .i32⟩
  | 18 => ⟨S1300000, .i32⟩
  | 19 => ⟨S1300000, .i32⟩
  | 20 => ⟨S1300000, .i32⟩
  | 21 => ⟨S1300000x1, .i32⟩
  | 22 => ⟨S1300000, .f32⟩
  | 23 => ⟨S_, .i32⟩
  | 24 => ⟨S1300000, .i32⟩
  | 25 => ⟨S1300000, .i1⟩
  | 26 => ⟨S_, .i32⟩
  | 27 => ⟨S1300000, .i32⟩
  | 28 => ⟨S1300000, .i32⟩
  | 29 => ⟨S1300000, .i32⟩
  | 30 => ⟨S1300000x1, .i32⟩
  | 31 => ⟨S1300000, .f32⟩
  | 32 => ⟨S1300000, .f32⟩
  | 33 => ⟨S_, .i32⟩
  | 34 => ⟨S1300000, .i32⟩
  | 35 => ⟨S1300000, .i1⟩
  | 36 => ⟨S_, .i32⟩
  | 37 => ⟨S1300000, .i32⟩
  | 38 => ⟨S1300000, .i32⟩
  | 39 => ⟨S1300000, .i32⟩
  | 40 => ⟨S1300000x1, .i32⟩
  | 41 => ⟨S1300000x64, .f32⟩
  | 42 => ⟨S1300000x1, .f32⟩
  | 43 => ⟨S1300000x64, .f32⟩
  | 44 => ⟨S1300000x64, .f32⟩
  | 45 => ⟨S_, .f32⟩
  | 46 => ⟨S50000x64, .f32⟩
  | 47 => ⟨S1300000x1, .i32⟩
  | 48 => ⟨S50000x64, .f32⟩
  | 49 => ⟨S_, .f32⟩
  | 50 => ⟨S500x64, .f32⟩
  | 51 => ⟨S50000x1, .i32⟩
  | 52 => ⟨S500x64, .f32⟩
  | 53 => ⟨S_, .f32⟩
  | 54 => ⟨S50000, .f32⟩
  | 55 => ⟨S_, .f32⟩
  | 56 => ⟨S500, .f32⟩
  | 57 => ⟨S50000x1, .i32⟩
  | 58 => ⟨S500, .f32⟩
  | 59 => ⟨S_, .f32⟩
  | 60 => ⟨S500, .f32⟩
  | 61 => ⟨S500, .f32⟩
  | 62 => ⟨S500x1, .f32⟩
  | 63 => ⟨S500x64, .f32⟩
  | 64 => ⟨S500x64, .f32⟩
  | 65 => ⟨S500x10, .f32⟩
  | 66 => ⟨S1x10, .f32⟩
  | 67 => ⟨S500x10, .f32⟩
  | 68 => ⟨S500x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call1_cst : Ref sig .tc := ⟨.hbm, 65, rfl⟩
abbrev main_call1_v0 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_call3_cst : Ref sig .tc := ⟨.hbm, 121, rfl⟩
abbrev main_call3_v0 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_20 : Ref sig .tc := ⟨.hbm, 128, rfl⟩
abbrev main_v90 : Ref sig .tc := ⟨.hbm, 129, rfl⟩
abbrev main_cst_21 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_22 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_23 : Ref sig .tc := ⟨.hbm, 138, rfl⟩
abbrev main_call4_v0 : Ref sig .tc := ⟨.hbm, 139, rfl⟩
abbrev main_call4_v1 : Ref sig .tc := ⟨.hbm, 140, rfl⟩
abbrev main_v97 : Ref sig .tc := ⟨.hbm, 141, rfl⟩
abbrev main_c_24 : Ref sig .tc := ⟨.hbm, 142, rfl⟩
abbrev main_v98 : Ref sig .tc := ⟨.hbm, 143, rfl⟩
abbrev main_v99 : Ref sig .tc := ⟨.hbm, 144, rfl⟩
abbrev main_c_25 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_26 : Ref sig .tc := ⟨.hbm, 151, rfl⟩
abbrev main_v105 : Ref sig .tc := ⟨.hbm, 152, rfl⟩
abbrev main_v106 : Ref sig .tc := ⟨.hbm, 153, rfl⟩
abbrev main_c_27 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_c_28 : Ref sig .tc := ⟨.hbm, 161, rfl⟩
abbrev main_v113 : Ref sig .tc := ⟨.hbm, 162, rfl⟩
abbrev main_v114 : Ref sig .tc := ⟨.hbm, 163, rfl⟩
abbrev main_c_29 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_30 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_31 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_32 : Ref sig .tc := ⟨.hbm, 181, rfl⟩
abbrev main_v129 : Ref sig .tc := ⟨.hbm, 182, rfl⟩
abbrev main_cst_33 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_cst_34 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  concatenates_S1250000_S50000_S1300000_d0 : Shape.Concatenates [S1250000, S50000] S1300000 0
  bcast_S_S1300000 : S_.BroadcastsInDim S1300000 (![] : Fin 0 → Fin S1300000.rank)
  bcast_S_S50000 : S_.BroadcastsInDim S50000 (![] : Fin 0 → Fin S50000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S50000x64 : S_.BroadcastsInDim S50000x64 (![] : Fin 0 → Fin S50000x64.rank)
  bcast_S_S500x64 : S_.BroadcastsInDim S500x64 (![] : Fin 0 → Fin S500x64.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x64_0_1 : S500x1.BroadcastsInDim S500x64 (![0, 1] : Fin 2 → Fin S500x64.rank)
  bcast_S10_S1x10_1 : S10.BroadcastsInDim S1x10 (![1] : Fin 1 → Fin S1x10.rank)
  bcast_S1x10_S500x10_0_1 : S1x10.BroadcastsInDim S500x10 (![0, 1] : Fin 2 → Fin S500x10.rank)
  dot_S50000x128_S128x64_S50000x64_1_0_0_1_n_n_wf : DotDims.WF S50000x128 S128x64 S50000x64 [1] [0] [0] [1] [] []
  scatter_S50000_S1300000x1_S1300000_n_0_0_1_wf : ScatterDims.WF S50000 S1300000x1 S1300000 [] [0] [0] 1
  gather_S50000_S1300000x1_S1300000_n_0_n_n_0_1_1_wf : GatherDims.WF S50000 S1300000x1 S1300000 [] [0] [] [0] [] 1 ![1]
  gather_S50000x64_S1300000x1_S1300000x64_1_0_n_n_0_1_164_wf : GatherDims.WF S50000x64 S1300000x1 S1300000x64 [1] [0] [] [0] [] 1 ![1, 64]
  scatter_S50000x64_S1300000x1_S1300000x64_1_0_0_1_wf : ScatterDims.WF S50000x64 S1300000x1 S1300000x64 [1] [0] [0] 1
  dot_S50000x64_S64x64_S50000x64_1_0_0_1_n_n_wf : DotDims.WF S50000x64 S64x64 S50000x64 [1] [0] [0] [1] [] []
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1
  dot_S500x64_S64x10_S500x10_1_0_0_1_n_n_wf : DotDims.WF S500x64 S64x10 S500x10 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S1300000x1_S1300000_n_0_0_1 : ScatterDims S50000 S1300000x1 S1300000 where
  updateWindowDims := []
  insertedWindowDims := [0]
  scatterDimsToOperandDims := [0]
  indexVectorDim := 1
  wf := scatter_S50000_S1300000x1_S1300000_n_0_0_1_wf
def gather_S50000_S1300000x1_S1300000_n_0_n_n_0_1_1 : GatherDims S50000 S1300000x1 S1300000 where
  offsetDims := []
  collapsedSliceDims := [0]
  operandBatchingDims := []
  startIndicesBatchingDims := []
  startIndexMap := [0]
  indexVectorDim := 1
  sliceSizes := ![1]
  wf := gather_S50000_S1300000x1_S1300000_n_0_n_n_0_1_1_wf
def gather_S50000x64_S1300000x1_S1300000x64_1_0_n_n_0_1_164 : GatherDims S50000x64 S1300000x1 S1300000x64 where
  offsetDims := [1]
  collapsedSliceDims := [0]
  operandBatchingDims := []
  startIndicesBatchingDims := []
  startIndexMap := [0]
  indexVectorDim := 1
  sliceSizes := ![1, 64]
  wf := gather_S50000x64_S1300000x1_S1300000x64_1_0_n_n_0_1_164_wf
def scatter_S50000x64_S1300000x1_S1300000x64_1_0_0_1 : ScatterDims S50000x64 S1300000x1 S1300000x64 where
  updateWindowDims := [1]
  insertedWindowDims := [0]
  scatterDimsToOperandDims := [0]
  indexVectorDim := 1
  wf := scatter_S50000x64_S1300000x1_S1300000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x64_S64x10_S500x10_1_0_0_1_n_n : DotDims S500x64 S64x10 S500x10 where
  lhsContracting := [1]
  rhsContracting := [0]
  lhsNonContracting := [0]
  rhsNonContracting := [1]
  lhsBatch := []
  rhsBatch := []
  wf := dot_S500x64_S64x10_S500x10_1_0_0_1_n_n_wf

class Facts : Prop extends Facts₀ where

variable [Facts]
-- ==== Proof.KernelRun.lean ====
/-
  The idealized kernel program's run with its result named.
  The program is four kernel launches among stretches of host operations. Its run from any launch memory is the chain of
  those segments; the buffer contents at the segment boundaries form a fold from the launch memory, and at the last
  boundary every buffer that outlives the launches holds that fold's last value `W10`. Read at the result buffer this says
  what the program returns; read at an argument buffer it says the argument is as launched.
-/
import proofs.«164278_j37211596652978_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents at it, and the eight argument buffers are as launched. -/
theorem run_result : θ_run defs (onTc (τ := τ) (main (F := F))) ⟨m, fun _ => 0, ρ⟩ (fun r => ∀ c : Dev nD,
      r.2.mem ((c.tc : Thread nD τ).loc main_v91) = W10 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v91 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Whole

end
-- ==== Proof.Carry.lean ====
/-
  Buffers that ride unchanged through the program's segments.
  The buffer contents at the segment boundaries are a fold from the launch memory: a stretch of host operations rewrites the
  buffers its operations write and leaves every other buffer, and a kernel launch rewrites its output array and leaves every
  buffer that is not one of its four arrays. The edge lists, the edge weights and the zero biases are computed once, before the
  first launch, and read again after it; the weights, the graph ids and the output bias are arguments read late. Each lemma
  here walks one such buffer back from the boundary where it is read to the boundary where it was last written.
-/
import proofs.«164278_j37211596652978_1_alg».proof.Proof.Gen.KernelIdeal.Frame

set_option maxRecDepth 16384

noncomputable section

namespace Cert.KernelIdeal.Carry

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- A stretch of host operations none of which writes the buffer leaves it as it was. -/
macro "host_keeps" : tactic => `(tactic|
  exact StableHlo.after_of_forall_not_mem _ _ (List.forall_iff_forall_mem.mp (by
    simp only [hostOps0, hostOps0_1, hostOps0_2, hostOps1, hostOps2, hostOps3, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-- The edge sources, read after the first launch, are as computed before it. -/
theorem v5_at4 (c : Dev nD) : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

/-- The edge sources, read after the second launch, are as computed before the first. -/
theorem v5_at6 (c : Dev nD) : W6 m ρ c (Proc.devRef .tc main_v5) = W3 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := by host_keeps
    _ = W3 m ρ c (Proc.devRef .tc main_v5) := W4_of_ne m ρ c main_v5 (by decide)

/-- The edge sources, read after the third launch, are as computed before the first. -/
theorem v5_at8 (c : Dev nD) : W8 m ρ c (Proc.devRef .tc main_v5) = W3 m ρ c (Proc.devRef .tc main_v5) :=
  calc W8 m ρ c (Proc.devRef .tc main_v5)
    _ = W7 m ρ c (Proc.devRef .tc main_v5) := W8_of_ne m ρ c main_v5 (by decide)
    _ = W6 m ρ c (Proc.devRef .tc main_v5) := by host_keeps
    _ = W5 m ρ c (Proc.devRef .tc main_v5) := W6_of_ne m ρ c main_v5 (by decide)
    _ = W4 m ρ c (Proc.devRef .tc main_v5) := by host_keeps
    _ = W3 m ρ c (Proc.devRef .tc main_v5) := W4_of_ne m ρ c main_v5 (by decide)

/-- The edge destinations, read after the first launch, are as computed before it. -/
theorem v6_at4 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- The edge destinations, read after the second launch, are as computed before the first. -/
theorem v6_at6 (c : Dev nD) : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by host_keeps
    _ = W3 m ρ c (Proc.devRef .tc main_v6) := W4_of_ne m ρ c main_v6 (by decide)

/-- The edge destinations, read after the third launch, are as computed before the first. -/
theorem v6_at8 (c : Dev nD) : W8 m ρ c (Proc.devRef .tc main_v6) = W3 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by host_keeps
    _ = W5 m ρ c (Proc.devRef .tc main_v6) := W6_of_ne m ρ c main_v6 (by decide)
    _ = W4 m ρ c (Proc.devRef .tc main_v6) := by host_keeps
    _ = W3 m ρ c (Proc.devRef .tc main_v6) := W4_of_ne m ρ c main_v6 (by decide)

/-- The edge weights, read after the first launch, are as computed before it. -/
theorem v29_at4 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

/-- The edge weights, read after the second launch, are as computed before the first. -/
theorem v29_at6 (c : Dev nD) : W6 m ρ c (Proc.devRef .tc main_v29) = W3 m ρ c (Proc.devRef .tc main_v29) :=
  calc W6 m ρ c (Proc.devRef .tc main_v29)
    _ = W5 m ρ c (Proc.devRef .tc main_v29) := W6_of_ne m ρ c main_v29 (by decide)
    _ = W4 m ρ c (Proc.devRef .tc main_v29) := by host_keeps
    _ = W3 m ρ c (Proc.devRef .tc main_v29) := W4_of_ne m ρ c main_v29 (by decide)

/-- The edge weights, read after the third launch, are as computed before the first. -/
theorem v29_at8 (c : Dev nD) : W8 m ρ c (Proc.devRef .tc main_v29) = W3 m ρ c (Proc.devRef .tc main_v29) :=
  calc W8 m ρ c (Proc.devRef .tc main_v29)
    _ = W7 m ρ c (Proc.devRef .tc main_v29) := W8_of_ne m ρ c main_v29 (by decide)
    _ = W6 m ρ c (Proc.devRef .tc main_v29) := by host_keeps
    _ = W5 m ρ c (Proc.devRef .tc main_v29) := W6_of_ne m ρ c main_v29 (by decide)
    _ = W4 m ρ c (Proc.devRef .tc main_v29) := by host_keeps
    _ = W3 m ρ c (Proc.devRef .tc main_v29) := W4_of_ne m ρ c main_v29 (by decide)

/-- The second layer's zero bias, reshaped after the first launch, is as computed before it. -/
theorem v31_at4 (c : Dev nD) : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

/-- The third layer's zero bias, reshaped after the second launch, is as computed before the first. -/
theorem v32_at6 (c : Dev nD) : W6 m ρ c (Proc.devRef .tc main_v32) = W3 m ρ c (Proc.devRef .tc main_v32) :=
  calc W6 m ρ c (Proc.devRef .tc main_v32)
    _ = W5 m ρ c (Proc.devRef .tc main_v32) := W6_of_ne m ρ c main_v32 (by decide)
    _ = W4 m ρ c (Proc.devRef .tc main_v32) := by host_keeps
    _ = W3 m ρ c (Proc.devRef .tc main_v32) := W4_of_ne m ρ c main_v32 (by decide)

/-- The node features, as the first launch finds them, are as launched. -/
theorem arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps
    _ = W1 m ρ c (Proc.devRef .tc main_arg0) := by host_keeps
    _ = W0 m ρ c (Proc.devRef .tc main_arg0) := by host_keeps
    _ = m ((c : Thread nD τ).loc main_arg0) := rfl

/-- The first layer's weights, as the first launch finds them, are as launched. -/
theorem arg3_at3 (c : Dev nD) : W3 m ρ c (Proc.devRef .tc main_arg3) = m ((c : Thread nD τ).loc main_arg3) :=
  calc W3 m ρ c (Proc.devRef .tc main_arg3)
    _ = W2 m ρ c (Proc.devRef .tc main_arg3) := by host_keeps
    _ = W1 m ρ c (Proc.devRef .tc main_arg3) := by host_keeps
    _ = W0 m ρ c (Proc.devRef .tc main_arg3) := by host_keeps
    _ = m ((c : Thread nD τ).loc main_arg3) := rfl

/-- The second layer's weights, as the second launch finds them, are as launched. -/
theorem arg4_at5 (c : Dev nD) : W5 m ρ c (Proc.devRef .tc main_arg4) = m ((c : Thread nD τ).loc main_arg4) :=
  calc W5 m ρ c (Proc.devRef .tc main_arg4)
    _ = W4 m ρ c (Proc.devRef .tc main_arg4) := by host_keeps
    _ = W3 m ρ c (Proc.devRef .tc main_arg4) := W4_of_ne m ρ c main_arg4 (by decide)
    _ = W2 m ρ c (Proc.devRef .tc main_arg4) := by host_keeps
    _ = W1 m ρ c (Proc.devRef .tc main_arg4) := by host_keeps
    _ = W0 m ρ c (Proc.devRef .tc main_arg4) := by host_keeps
    _ = m ((c : Thread nD τ).loc main_arg4) := rfl

/-- The third layer's weights, as the third launch finds them, are as launched. -/
theorem arg5_at7 (c : Dev nD) : W7 m ρ c (Proc.devRef .tc main_arg5) = m ((c : Thread nD τ).loc main_arg5) :=
  calc W7 m ρ c (Proc.devRef .tc main_arg5)
    _ = W6 m ρ c (Proc.devRef .tc main_arg5) := by host_keeps
    _ = W5 m ρ c (Proc.devRef .tc main_arg5) := W6_of_ne m ρ c main_arg5 (by decide)
    _ = W4 m ρ c (Proc.devRef .tc main_arg5) := by host_keeps
    _ = W3 m ρ c (Proc.devRef .tc main_arg5) := W4_of_ne m ρ c main_arg5 (by decide)
    _ = W2 m ρ c (Proc.devRef .tc main_arg5) := by host_keeps
    _ = W1 m ρ c (Proc.devRef .tc main_arg5) := by host_keeps
    _ = W0 m ρ c (Proc.devRef .tc main_arg5) := by host_keeps
    _ = m ((c : Thread nD τ).loc main_arg5) := rfl

/-- The graph ids, read after the third launch, are as launched. -/
theorem arg2_at8 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := by host_keeps
    _ = W5 m ρ c (Proc.devRef .tc main_arg2) := W6_of_ne m ρ c main_arg2 (by decide)
    _ = W4 m ρ c (Proc.devRef .tc main_arg2) := by host_keeps
    _ = W3 m ρ c (Proc.devRef .tc main_arg2) := W4_of_ne m ρ c main_arg2 (by decide)
    _ = W2 m ρ c (Proc.devRef .tc main_arg2) := by host_keeps
    _ = W1 m ρ c (Proc.devRef .tc main_arg2) := by host_keeps
    _ = W0 m ρ c (Proc.devRef .tc main_arg2) := by host_keeps
    _ = m ((c : Thread nD τ).loc main_arg2) := rfl

/-- The output bias, reshaped after the third launch, is as launched. -/
theorem arg7_at8 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := by host_keeps
    _ = W5 m ρ c (Proc.devRef .tc main_arg7) := W6_of_ne m ρ c main_arg7 (by decide)
    _ = W4 m ρ c (Proc.devRef .tc main_arg7) := by host_keeps
    _ = W3 m ρ c (Proc.devRef .tc main_arg7) := W4_of_ne m ρ c main_arg7 (by decide)
    _ = W2 m ρ c (Proc.devRef .tc main_arg7) := by host_keeps
    _ = W1 m ρ c (Proc.devRef .tc main_arg7) := by host_keeps
    _ = W0 m ρ c (Proc.devRef .tc main_arg7) := by host_keeps
    _ = m ((c : Thread nD τ).loc main_arg7) := rfl

/-- The output weights, as the last launch finds them, are as launched. -/
theorem arg6_at9 (c : Dev nD) : W9 m ρ c (Proc.devRef .tc main_arg6) = m ((c : Thread nD τ).loc main_arg6) :=
  calc W9 m ρ c (Proc.devRef .tc main_arg6)
    _ = W8 m ρ c (Proc.devRef .tc main_arg6) := by host_keeps
    _ = W7 m ρ c (Proc.devRef .tc main_arg6) := W8_of_ne m ρ c main_arg6 (by decide)
    _ = W6 m ρ c (Proc.devRef .tc main_arg6) := by host_keeps
    _ = W5 m ρ c (Proc.devRef .tc main_arg6) := W6_of_ne m ρ c main_arg6 (by decide)
    _ = W4 m ρ c (Proc.devRef .tc main_arg6) := by host_keeps
    _ = W3 m ρ c (Proc.devRef .tc main_arg6) := W4_of_ne m ρ c main_arg6 (by decide)
    _ = W2 m ρ c (Proc.devRef .tc main_arg6) := by host_keeps
    _ = W1 m ρ c (Proc.devRef .tc main_arg6) := by host_keeps
    _ = W0 m ρ c (Proc.devRef .tc main_arg6) := by host_keeps
    _ = m ((c : Thread nD τ).loc main_arg6) := rfl

end Cert.KernelIdeal.Carry

end
-- ==== Proof.Linear.lean ====
/-
  The two whole-array functions the four kernel launches compute, over the extended reals.
  `affine x w b` is the matrix product of the rows `x` with the weights `w` plus the one bias row `b` added to every row:
  entry (r, q) is `∑ k, x (r, k) · w (k, q) + b (0, q)`. `clampAffine` is the same after every entry of `x` is clamped below
  at zero. Both are stated for any extents M, K, N.
-/
import Idealize.ShloMosaic.PureOps.Ideal
import Idealize.ShloMosaic.Lib.ValueIdx

noncomputable section

namespace Cert.Linear

open Idealize.ShloMosaic Idealize.ShloMosaic.ValueIdx

/-- Rows times weights, plus the bias row. -/
def affine (M K N : Nat) (x : FVec Ideal ⟨2, ![M, K]⟩ .f32) (w : FVec Ideal ⟨2, ![K, N]⟩ .f32)
    (b : FVec Ideal ⟨2, ![1, N]⟩ .f32) : FVec Ideal ⟨2, ![M, N]⟩ .f32 :=
  fun i => (∑ k : Fin K, x (ix2 (i 0) k) * w (ix2 k (i 1))) + b (ix2 (0 : Fin 1) (i 1))

/-- Rows clamped below at zero, times weights, plus the bias row. -/
def clampAffine (M K N : Nat) (x : FVec Ideal ⟨2, ![M, K]⟩ .f32) (w : FVec Ideal ⟨2, ![K, N]⟩ .f32)
    (b : FVec Ideal ⟨2, ![1, N]⟩ .f32) : FVec Ideal ⟨2, ![M, N]⟩ .f32 :=
  fun i => (∑ k : Fin K, max (x (ix2 (i 0) k)) 0 * w (ix2 k (i 1))) + b (ix2 (0 : Fin 1) (i 1))

theorem affine_apply (M K N : Nat) (x : FVec Ideal ⟨2, ![M, K]⟩ .f32) (w : FVec Ideal ⟨2, ![K, N]⟩ .f32)
    (b : FVec Ideal ⟨2, ![1, N]⟩ .f32) (r : Fin M) (q : Fin N) :
    affine M K N x w b (ix2 r q) = (∑ k : Fin K, x (ix2 r k) * w (ix2 k q)) + b (ix2 (0 : Fin 1) q) := rfl

theorem clampAffine_apply (M K N : Nat) (x : FVec Ideal ⟨2, ![M, K]⟩ .f32) (w : FVec Ideal ⟨2, ![K, N]⟩ .f32)
    (b : FVec Ideal ⟨2, ![1, N]⟩ .f32) (r : Fin M) (q : Fin N) :
    clampAffine M K N x w b (ix2 r q) = (∑ k : Fin K, max (x (ix2 r k)) 0 * w (ix2 k q)) + b (ix2 (0 : Fin 1) q) := rfl

/-- With a bias row that is zero the sum is the plain matrix product: adding zero changes no extended real. -/
theorem affine_of_zero_bias (M K N : Nat) (x : FVec Ideal ⟨2, ![M, K]⟩ .f32) (w : FVec Ideal ⟨2, ![K, N]⟩ .f32)
    (b : FVec Ideal ⟨2, ![1, N]⟩ .f32) (hb : ∀ q : Fin N, b (ix2 (0 : Fin 1) q) = 0) (r : Fin M) (q : Fin N) :
    affine M K N x w b (ix2 r q) = ∑ k : Fin K, x (ix2 r k) * w (ix2 k q) := by
  rw [affine_apply, hb, add_zero]

theorem clampAffine_of_zero_bias (M K N : Nat) (x : FVec Ideal ⟨2, ![M, K]⟩ .f32) (w : FVec Ideal ⟨2, ![K, N]⟩ .f32)
    (b : FVec Ideal ⟨2, ![1, N]⟩ .f32) (hb : ∀ q : Fin N, b (ix2 (0 : Fin 1) q) = 0) (r : Fin M) (q : Fin N) :
    clampAffine M K N x w b (ix2 r q) = ∑ k : Fin K, max (x (ix2 r k)) 0 * w (ix2 k q) := by
  rw [clampAffine_apply, hb, add_zero]

end Cert.Linear

end
-- ==== Proof.LibPlainDot.lean ====
/-
  A plain matrix product [M, K] × [K, N] → [M, N] (no batch axis, the left operand's axis 1 contracted with the right
  operand's axis 0), read at an index over the extended reals: the entry (r, q) is the sum over k of lhs (r, k) · rhs (k, q),
  for a kernel's `tpu.matmul` into a zero accumulator and for the host's `dot_general` alike. Stated for any M, K, N and any
  operand formats, over the library's dimension numbers `DotDims.plain`; a printed record with the same fields is that by `rfl`.
-/
import Idealize.ShloMosaic.PureOps.Ideal.Laws
import Idealize.ShloMosaic.Lib.ValueIdx

namespace Idealize.ShloMosaic.LibPlainDot

open Idealize.ShloMosaic.ValueIdx

variable {φ₁ φ₂ : FTy}

/-- The left operand's index at output (r, q) and contraction coordinate k is (r, k). -/
theorem plain_lhsIdx (M K N : Nat) (r : Fin M) (q : Fin N) (k : Fin K) :
    (DotDims.plain M K N).lhsIdx (ix2 r q) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r q) _).trans hk

/-- The right operand's index at output (r, q) and contraction coordinate k is (k, q). -/
theorem plain_rhsIdx (M K N : Nat) (r : Fin M) (q : Fin N) (k : Fin K) :
    (DotDims.plain M K N).rhsIdx (ix2 r q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 r q) _).trans hk
  | ⟨1, _⟩ => rfl

/-- A kernel's matrix product into a zero accumulator, at (r, q): the sum over k of lhs (r, k) · rhs (k, q). -/
theorem matmul_plain_apply (M K N : Nat) (prec : Option ContractPrecision)
    (lhs : FVec Ideal ⟨2, ![M, K]⟩ φ₁) (rhs : FVec Ideal ⟨2, ![K, N]⟩ φ₂) (r : Fin M) (q : Fin N) :
    FloatOps.matmul (DotDims.plain M K N) prec lhs rhs (constant ⟨2, ![M, N]⟩ .f32 0x00000000#32) (ix2 r q)
      = ∑ k : Fin K, lhs (ix2 r k) * rhs (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's `dot_general` of the same dimension numbers, at (r, q): the same sum. -/
theorem dotGeneral_plain_apply (M K N : Nat) (prec : Option ContractPrecision) (sched : HostSchedule)
    (lhs : FVec Ideal ⟨2, ![M, K]⟩ φ₁) (rhs : FVec Ideal ⟨2, ![K, N]⟩ φ₂) (r : Fin M) (q : Fin N) :
    FloatOps.dotGeneral (DotDims.plain M K N) prec sched lhs rhs (ix2 r q)
      = ∑ k : Fin K, lhs (ix2 r k) * rhs (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Idealize.ShloMosaic.LibPlainDot
-- ==== Proof.Stages.lean ====
/-
  The reference program's stages against the kernel's linear maps, and its repeated stages against each other.
  The reference computes each graph convolution as a matrix product followed by the gather / weight / scatter-add aggregate,
  clamps below at zero between convolutions, and ends with the pooled rows times the output weights plus the output bias.
  * Its first product is `affine` with a zero bias row; its second and third products, each taken of the clamp of the
    previous aggregate, are `clampAffine` of that aggregate with a zero bias row; its last line is `affine` of the pooled rows
    with the output bias laid out as one row. Each is one sum per entry on both sides: the matrix product read at an entry.
  * It recomputes the edge lists and the edge weights inside every convolution; the three computations are one and the same
    term of the edge array.
-/
import proofs.«164278_j37211596652978_1_alg».proof.Proof.RefRead
import proofs.«164278_j37211596652978_1_alg».proof.Proof.Linear
import proofs.«164278_j37211596652978_1_alg».proof.Proof.LibPlainDot
import Idealize.ShloMosaic.Lib.ValueIdx
import Idealize.ShloMosaic.Lib.ValueLayout
import Idealize.ShloMosaic.PureOps.Ideal.Laws

noncomputable section

namespace Cert.ReferenceIdeal.Stages

open Idealize.ShloMosaic Idealize.ShloMosaic.ValueIdx Idealize.ShloMosaic.LibPlainDot
open Cert.ReferenceIdeal Cert.ReferenceIdeal.ReadP Cert.Linear

/-! ## The clamp's zero array -/

/-- The array the first clamp compares with reads zero everywhere. -/
theorem clamp_zero1 (i : S50000x64.Idx) : val_main_call1_v0 (F := Ideal) i = 0 := by
  rw [val_main_call1_v0_apply, val_main_call1_cst_apply]
  exact Ideal.ofBits_zero_f32

/-- So does the second clamp's. -/
theorem clamp_zero3 (i : S50000x64.Idx) : val_main_call3_v0 (F := Ideal) i = 0 := by
  rw [val_main_call3_v0_apply, val_main_call3_cst_apply]
  exact Ideal.ofBits_zero_f32

/-! ## The four linear maps -/

/-- The first product. -/
theorem stage4_of_zero_bias (x : FVec Ideal S50000x128 .f32) (w : FVec Ideal S128x64 .f32) (b : FVec Ideal ⟨2, ![1, 64]⟩ .f32)
    (hb : ∀ q : Fin 64, b (ix2 (0 : Fin 1) q) = 0) : affine 50000 128 64 x w b = val_main_v4 (F := Ideal) x w := by
  funext i
  obtain ⟨r, q, rfl⟩ : ∃ (r : Fin 50000) (q : Fin 64), i = ix2 r q := ⟨i 0, i 1, eq_ix2 i⟩
  rw [affine_of_zero_bias 50000 128 64 x w b hb]
  unfold val_main_v4
  exact (dotGeneral_plain_apply 50000 128 64 none .single x w r q).symm

/-- The second product, of the clamp of the first aggregate. -/
theorem stage45_of_zero_bias (x0 : FVec Ideal S50000x128 .f32) (x1 : IVec S2x1250000 32) (x3 : FVec Ideal S128x64 .f32)
    (w : FVec Ideal S64x64 .f32) (b : FVec Ideal ⟨2, ![1, 64]⟩ .f32) (hb : ∀ q : Fin 64, b (ix2 (0 : Fin 1) q) = 0) :
    clampAffine 50000 64 64 (val_main_v43 (F := Ideal) x0 x1 x3) w b = val_main_v45 (F := Ideal) x0 x1 x3 w := by
  funext i
  obtain ⟨r, q, rfl⟩ : ∃ (r : Fin 50000) (q : Fin 64), i = ix2 r q := ⟨i 0, i 1, eq_ix2 i⟩
  rw [clampAffine_of_zero_bias 50000 64 64 _ w b hb]
  unfold val_main_v45
  refine Eq.trans ?_ (dotGeneral_plain_apply 50000 64 64 none .single (val_main_v44 (F := Ideal) x0 x1 x3) w r q).symm
  refine Finset.sum_congr rfl fun k _ => ?_
  have hz := clamp_zero1 (ix2 r k)
  show max (val_main_v43 (F := Ideal) x0 x1 x3 (ix2 r k)) 0 * w (ix2 k q)
      = val_main_v44 (F := Ideal) x0 x1 x3 (ix2 r k) * w (ix2 k q)
  rw [val_main_v44_apply, hz]
  rfl

/-- The third product, of the clamp of the second aggregate. -/
theorem stage86_of_zero_bias (x0 : FVec Ideal S50000x128 .f32) (x1 : IVec S2x1250000 32) (x3 : FVec Ideal S128x64 .f32)
    (x4 : FVec Ideal S64x64 .f32) (w : FVec Ideal S64x64 .f32) (b : FVec Ideal ⟨2, ![1, 64]⟩ .f32)
    (hb : ∀ q : Fin 64, b (ix2 (0 : Fin 1) q) = 0) :
    clampAffine 50000 64 64 (val_main_v84 (F := Ideal) x0 x1 x3 x4) w b = val_main_v86 (F := Ideal) x0 x1 x3 x4 w := by
  funext i
  obtain ⟨r, q, rfl⟩ : ∃ (r : Fin 50000) (q : Fin 64), i = ix2 r q := ⟨i 0, i 1, eq_ix2 i⟩
  rw [clampAffine_of_zero_bias 50000 64 64 _ w b hb]
  unfold val_main_v86
  refine Eq.trans ?_ (dotGeneral_plain_apply 50000 64 64 none .single (val_main_v85 (F := Ideal) x0 x1 x3 x4) w r q).symm
  refine Finset.sum_congr rfl fun k _ => ?_
  have hz := clamp_zero3 (ix2 r k)
  show max (val_main_v84 (F := Ideal) x0 x1 x3 x4 (ix2 r k)) 0 * w (ix2 k q)
      = val_main_v85 (F := Ideal) x0 x1 x3 x4 (ix2 r k) * w (ix2 k q)
  rw [val_main_v85_apply, hz]
  rfl

/-- The last line: the pooled rows times the output weights, plus the output bias read as one row. -/
theorem stage141_of_row_bias (x0 : FVec Ideal S50000x128 .f32) (x1 : IVec S2x1250000 32) (x2 : IVec S50000 32)
    (x3 : FVec Ideal S128x64 .f32) (x4 x5 : FVec Ideal S64x64 .f32) (wl : FVec Ideal S64x10 .f32) (bl : FVec Ideal S10 .f32)
    (b : FVec Ideal S1x10 .f32) (hb : ∀ q : Fin 10, b (ix2 (0 : Fin 1) q) = bl (ix1 q)) :
    affine 500 64 10 (val_main_v137 (F := Ideal) x0 x1 x2 x3 x4 x5) wl b
      = val_main_v141 (F := Ideal) x0 x1 x2 x3 x4 x5 wl bl := by
  funext i
  obtain ⟨r, q, rfl⟩ : ∃ (r : Fin 500) (q : Fin 10), i = ix2 r q := ⟨i 0, i 1, eq_ix2 i⟩
  rw [affine_apply, hb, val_main_v141_apply]
  show _ + _ = val_main_v138 (F := Ideal) x0 x1 x2 x3 x4 x5 wl (ix2 r q) + val_main_v140 (F := Ideal) bl (ix2 r q)
  refine congrArg₂ (· + ·) ?_ ?_
  · unfold val_main_v138
    exact (dotGeneral_plain_apply 500 64 10 none .single (val_main_v137 (F := Ideal) x0 x1 x2 x3 x4 x5) wl r q).symm
  · rw [val_main_v140_apply, val_main_v139_apply]
    exact congrArg bl (funext fun a => Fin.ext (by match a with | ⟨0, _⟩ => rfl))

/-! ## The convolutions' repeated stages -/

/-- The second convolution's edge sources, destinations and weights are the first's. -/
theorem src2 (x1 : IVec S2x1250000 32) : val_main_v47 (F := Ideal) x1 = val_main_v6 (F := Ideal) x1 := rfl
theorem dst2 (x1 : IVec S2x1250000 32) : val_main_v48 (F := Ideal) x1 = val_main_v7 (F := Ideal) x1 := rfl
theorem wgt2 (x1 : IVec S2x1250000 32) : val_main_v71 (F := Ideal) x1 = val_main_v30 (F := Ideal) x1 := rfl

/-- So are the third convolution's. -/
theorem src3 (x1 : IVec S2x1250000 32) : val_main_v88 (F := Ideal) x1 = val_main_v6 (F := Ideal) x1 := rfl
theorem dst3 (x1 : IVec S2x1250000 32) : val_main_v89 (F := Ideal) x1 = val_main_v7 (F := Ideal) x1 := rfl
theorem wgt3 (x1 : IVec S2x1250000 32) : val_main_v112 (F := Ideal) x1 = val_main_v30 (F := Ideal) x1 := rfl

end Cert.ReferenceIdeal.Stages

end
-- ==== Proof.EdgeData.lean ====
/-
  What the host computes from the edge array before the first kernel launch, named by the reference's stages.
  The edge sources and destinations are the two rows of the edge array, each with the node numbers 0 … 49999 appended (one self
  loop per node). A node's degree is the number of edges arriving at it; its inverse square root is kept where the degree is
  positive and replaced by zero elsewhere. An edge's weight is the product of that quantity at its two endpoints. The three
  layers' bias vectors are zero. The kernel program computes all of this once, by the very operations the reference applies
  inside each of its three convolutions; each lemma reads one buffer off the fold of host operations and identifies it with
  the reference's stage.
-/
import proofs.«164278_j37211596652978_1_alg».proof.Proof.Gen.KernelIdeal.Frame
import proofs.«164278_j37211596652978_1_alg».proof.Proof.Carry
import proofs.«164278_j37211596652978_1_alg».proof.Proof.Stages
import Idealize.ShloMosaic.Lib.StableHlo.Run
import Idealize.ShloMosaic.Lib.ValueLayout

set_option maxRecDepth 16384

noncomputable section

namespace Cert.KernelIdeal.EdgeData

open Idealize.ShloMosaic Idealize.ShloMosaic.TcCoe Idealize.ShloMosaic.ValueIdx Idealize.SL.Sem Idealize.ShloMosaic.StableHlo
open Cert.KernelIdeal Cert.KernelIdeal.Gen Cert.KernelIdeal.Carry
open Cert.ReferenceIdeal.ReadP Cert.ReferenceIdeal.Stages

variable (m : (ℓ : Loc nD τ sig) → Buf (Elt Ideal) ℓ) (ρ : Dev nD → PrngReg)

/-- The edge array as launched. -/
abbrev edges (c : Dev nD) := m ((c : Thread nD τ).loc main_arg1)

/-! ## The first stretch: edge lists and degrees -/

/-- The edge sources with the self loops appended, once computed. -/
theorem sources2 (c : Dev nD) : W2 m ρ c (Proc.devRef .tc main_v5) = val_main_v6 (F := Ideal) (edges m c) := by
  show StableHlo.after hostOps0_1 (StableHlo.after hostOps0 (W0 m ρ c)) (Proc.devRef .tc main_v5) = _
  have hW : W0 m ρ c (Proc.devRef .tc main_arg1) = edges m c := rfl
  generalize W0 m ρ c = X at hW ⊢
  simp only [hostOps0_1, hostOps0]
  after_results
  rw [hW]
  rfl

/-- The edge destinations with the self loops appended, once computed. -/
theorem dests2 (c : Dev nD) : W2 m ρ c (Proc.devRef .tc main_v6) = val_main_v7 (F := Ideal) (edges m c) := by
  show StableHlo.after hostOps0_1 (StableHlo.after hostOps0 (W0 m ρ c)) (Proc.devRef .tc main_v6) = _
  have hW : W0 m ρ c (Proc.devRef .tc main_arg1) = edges m c := rfl
  generalize W0 m ρ c = X at hW ⊢
  simp only [hostOps0_1, hostOps0]
  after_results
  rw [hW]
  rfl

set_option maxHeartbeats 1000000 in
/-- Where a node's degree is positive. -/
theorem degPositive1 (c : Dev nD) : W1 m ρ c (Proc.devRef .tc main_v12) = val_main_v13 (F := Ideal) (edges m c) := by
  show StableHlo.after hostOps0 (W0 m ρ c) (Proc.devRef .tc main_v12) = _
  have hW : W0 m ρ c (Proc.devRef .tc main_arg1) = edges m c := rfl
  generalize W0 m ρ c = X at hW ⊢
  simp only [hostOps0]
  after_results
  rw [hW]
  unfold val_main_v13 val_main_v11 val_main_v9 val_main_cst_0 val_main_v10 val_main_v7 val_main_v3 val_main_v2 val_main_v5 val_main_v8 val_main_cst val_main_v12 val_main_cst_1
  rfl

set_option maxHeartbeats 1000000 in
/-- The inverse square root of every node's degree, before the test. -/
theorem rsqrtDeg1 (c : Dev nD) : W1 m ρ c (Proc.devRef .tc main_v13) = val_main_v14 (F := Ideal) (edges m c) := by
  show StableHlo.after hostOps0 (W0 m ρ c) (Proc.devRef .tc main_v13) = _
  have hW : W0 m ρ c (Proc.devRef .tc main_arg1) = edges m c := rfl
  generalize W0 m ρ c = X at hW ⊢
  simp only [hostOps0]
  after_results
  rw [hW]
  unfold val_main_v14 val_main_v11 val_main_v9 val_main_cst_0 val_main_v10 val_main_v7 val_main_v3 val_main_v2 val_main_v5 val_main_v8 val_main_cst
  rfl

/-- The scalar the test falls back to. -/
theorem fallback1 (c : Dev nD) : W1 m ρ c (Proc.devRef .tc main_cst_2) = val_main_cst_2 (F := Ideal) := by
  show StableHlo.after hostOps0 (W0 m ρ c) (Proc.devRef .tc main_cst_2) = _
  generalize W0 m ρ c = X
  simp only [hostOps0]
  after_results <;> rfl

/-! ## The second stretch: the test applied -/

/-- The three operations of the test, from any contents: keep the second array where the first holds, else the scalar. -/
theorem where_read (Y : Valuation τ sig (Elt Ideal)) :
    StableHlo.after hostOps0_1 Y (Proc.devRef .tc main_v14)
      = select (Y (Proc.devRef .tc main_v12)) (Y (Proc.devRef .tc main_v13))
          (broadcastInDim S50000 ![] bcast_S_S50000 (Y (Proc.devRef .tc main_cst_2))) := by
  simp only [hostOps0_1]
  after_results <;> rfl

/-- The inverse square root of each node's degree, zero where the degree is not positive. -/
theorem invSqrtDeg2 (c : Dev nD) : W2 m ρ c (Proc.devRef .tc main_v14) = val_main_v15 (F := Ideal) (edges m c) := by
  show StableHlo.after hostOps0_1 (W1 m ρ c) (Proc.devRef .tc main_v14) = _
  rw [where_read, degPositive1 m ρ c, rsqrtDeg1 m ρ c, fallback1 m ρ c]
  unfold val_main_v15 val_main_call0_v1 val_main_call0_v0
  rfl

/-! ## The third stretch: edge weights and zero biases -/

/-- The edge sources as the first launch finds them. -/
theorem sources_eq (c : Dev nD) : W3 m ρ c (Proc.devRef .tc main_v5) = val_main_v6 (F := Ideal) (edges m c) :=
  (show W3 m ρ c (Proc.devRef .tc main_v5) = W2 m ρ c (Proc.devRef .tc main_v5) from by host_keeps).trans (sources2 m ρ c)

/-- The edge destinations as the first launch finds them. -/
theorem dests_eq (c : Dev nD) : W3 m ρ c (Proc.devRef .tc main_v6) = val_main_v7 (F := Ideal) (edges m c) :=
  (show W3 m ρ c (Proc.devRef .tc main_v6) = W2 m ρ c (Proc.devRef .tc main_v6) from by host_keeps).trans (dests2 m ρ c)

set_option maxHeartbeats 1000000 in
/-- The edge weights: the product of the two endpoints' inverse square root degrees. -/
theorem weights_eq (c : Dev nD) : W3 m ρ c (Proc.devRef .tc main_v29) = val_main_v30 (F := Ideal) (edges m c) := by
  have h14 := invSqrtDeg2 m ρ c
  have h5 := sources2 m ρ c
  have h6 := dests2 m ρ c
  show StableHlo.after hostOps0_2 (W2 m ρ c) (Proc.devRef .tc main_v29) = _
  generalize W2 m ρ c = X at h14 h5 h6 ⊢
  simp only [hostOps0_2]
  after_results
  rw [h14, h5, h6]
  unfold val_main_v30 val_main_v22 val_main_v21 val_main_v20 val_main_v17 val_main_v16 val_main_c val_main_v19 val_main_v18 val_main_c_3 val_main_v29 val_main_v28 val_main_v27 val_main_v24 val_main_v23 val_main_c_4 val_main_v26 val_main_v25 val_main_c_5
  rfl

/-- A zero bias vector, as the host builds each of the three. -/
abbrev zeroVec : FVec Ideal S64 .f32 := broadcastInDim S64 ![] bcast_S_S64 (constant (F := Ideal) S_ .f32 0x00000000#32)

/-- Laid out as one row it reads zero everywhere. -/
theorem zeroRow_apply (v : FVec Ideal S64 .f32) (hv : v = zeroVec) (q : Fin 64) :
    shapeCast S1x64 v shapeCasts_S64_S1x64 (ix2 (0 : Fin 1) q) = (0 : EReal) := by
  subst hv
  rw [shapeCast_a_1a_apply]
  show Ideal.ofBits .f32 0x00000000#32 = 0
  exact Ideal.ofBits_zero_f32

theorem zero2_eq (c : Dev nD) : W3 m ρ c (Proc.devRef .tc main_v31) = zeroVec := by
  show StableHlo.after hostOps0_2 (W2 m ρ c) (Proc.devRef .tc main_v31) = _
  generalize W2 m ρ c = X
  simp only [hostOps0_2]
  after_results <;> rfl

theorem zero3_eq (c : Dev nD) : W3 m ρ c (Proc.devRef .tc main_v32) = zeroVec := by
  show StableHlo.after hostOps0_2 (W2 m ρ c) (Proc.devRef .tc main_v32) = _
  generalize W2 m ρ c = X
  simp only [hostOps0_2]
  after_results <;> rfl

/-- The first launch's bias row is zero. -/
theorem bias1_zero (c : Dev nD) (q : Fin 64) : V3 m ρ c main_v33 (ix2 (0 : Fin 1) q) = (0 : EReal) := by
  have h : W3 m ρ c (Proc.devRef .tc main_v33) = shapeCast S1x64 zeroVec shapeCasts_S64_S1x64 := by
    show StableHlo.after hostOps0_2 (W2 m ρ c) (Proc.devRef .tc main_v33) = _
    generalize W2 m ρ c = X
    simp only [hostOps0_2]
    after_results <;> rfl
  show W3 m ρ c (Proc.devRef .tc main_v33) (ix2 (0 : Fin 1) q) = (0 : EReal)
  rw [h]
  exact zeroRow_apply _ rfl q

end Cert.KernelIdeal.EdgeData

end
-- ==== Proof.Bodies.lean ====
/-
  What each of the four kernel bodies stores, read at one entry over the extended reals.
  Every body loads a block of rows `x`, the whole weight matrix `w` and the one-row bias `b`, and stores
  `x · w + b` (layers two and three first clamp `x` below at zero). A change of float format is the identity here and the
  matrix product runs into a zero accumulator, so entry (p, q) of the stored block is
  `∑ k, x (p, k) · w (k, q) + b (0, q)`, with `max (x (p, k)) 0` in place of `x (p, k)` where the body clamps.
-/
import proofs.«164278_j37211596652978_1_alg».proof.Proof.Gen.KernelIdeal.Skeleton
import proofs.«164278_j37211596652978_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bodies

open Idealize.ShloMosaic Idealize.ShloMosaic.ValueIdx Idealize.ShloMosaic.LibPlainDot
open Cert.KernelIdeal Cert.KernelIdeal.Gen

/-- The zero word of the clamp is the real number zero. -/
theorem zero_word : Scalar.ofBits (F := Ideal) .f32 0x00000000#32 = (0 : EReal) := Ideal.ofBits_zero_f32

/-- Layer one's block: a plain product of the rows with the weights, plus the bias row. -/
theorem pay0_apply (x0 : Vec Ideal S5000x128 .f32) (x1 : Vec Ideal S128x64 .f32) (x2 : Vec Ideal S1x64 .f32)
    (p : Fin 5000) (q : Fin 64) :
    k0_pay1 (F := Ideal) x0 x1 x2 (ix2 p q) = (∑ k : Fin 128, x0 (ix2 p k) * x1 (ix2 k q)) + x2 (ix2 (0 : Fin 1) q) := by
  unfold k0_pay1
  show FloatOps.matmul (F := Ideal) dot_S5000x128_S128x64_S5000x64_1_0_0_1_n_n none (truncf (F := Ideal) .bf16 x0 bitsLt_bf16_f32)
        (truncf (F := Ideal) .bf16 x1 bitsLt_bf16_f32) (constant (F := Ideal) S5000x64 .f32 0x00000000#32) (ix2 p q)
      + broadcastTo S5000x64 (shapeCast S1x64 x2 shapeCasts_S1x64_S1x64) broadcasts_S1x64_S5000x64 (ix2 p q) = _
  rw [shapeCast_self, broadcastTo_1b_ab_apply]
  exact congrArg (· + x2 (ix2 (0 : Fin 1) q))
    (matmul_plain_apply 5000 128 64 none (truncf (F := Ideal) .bf16 x0 bitsLt_bf16_f32) (truncf (F := Ideal) .bf16 x1 bitsLt_bf16_f32) p q)

/-- Layers two and three share one body: the rows are clamped below at zero before the product. -/
theorem pay1_apply (x0 : Vec Ideal S5000x64 .f32) (x1 : Vec Ideal S64x64 .f32) (x2 : Vec Ideal S1x64 .f32)
    (p : Fin 5000) (q : Fin 64) :
    k1_pay1 (F := Ideal) x0 x1 x2 (ix2 p q)
      = (∑ k : Fin 64, max (x0 (ix2 p k)) 0 * x1 (ix2 k q)) + x2 (ix2 (0 : Fin 1) q) := by
  unfold k1_pay1
  show FloatOps.matmul (F := Ideal) dot_S5000x64_S64x64_S5000x64_1_0_0_1_n_n none
        (truncf (F := Ideal) .bf16 (maximumf (F := Ideal) (shapeCast S5000x64 x0 shapeCasts_S5000x64_S5000x64)
          (broadcast S5000x64 (Scalar.ofBits (F := Ideal) .f32 0x00000000#32))) bitsLt_bf16_f32)
        (truncf (F := Ideal) .bf16 x1 bitsLt_bf16_f32) (constant (F := Ideal) S5000x64 .f32 0x00000000#32) (ix2 p q)
      + broadcastTo S5000x64 (shapeCast S1x64 x2 shapeCasts_S1x64_S1x64) broadcasts_S1x64_S5000x64 (ix2 p q) = _
  rw [shapeCast_self, shapeCast_self, broadcastTo_1b_ab_apply, zero_word]
  exact congrArg (· + x2 (ix2 (0 : Fin 1) q))
    (matmul_plain_apply 5000 64 64 none
      (truncf (F := Ideal) .bf16 (maximumf (F := Ideal) x0 (broadcast S5000x64 (0 : EReal))) bitsLt_bf16_f32) (truncf (F := Ideal) .bf16 x1 bitsLt_bf16_f32) p q)

theorem pay2_apply (x0 : Vec Ideal S5000x64 .f32) (x1 : Vec Ideal S64x64 .f32) (x2 : Vec Ideal S1x64 .f32)
    (p : Fin 5000) (q : Fin 64) :
    k2_pay1 (F := Ideal) x0 x1 x2 (ix2 p q)
      = (∑ k : Fin 64, max (x0 (ix2 p k)) 0 * x1 (ix2 k q)) + x2 (ix2 (0 : Fin 1) q) := by
  unfold k2_pay1
  show FloatOps.matmul (F := Ideal) dot_S5000x64_S64x64_S5000x64_1_0_0_1_n_n none
        (truncf (F := Ideal) .bf16 (maximumf (F := Ideal) (shapeCast S5000x64 x0 shapeCasts_S5000x64_S5000x64)
          (broadcast S5000x64 (Scalar.ofBits (F := Ideal) .f32 0x00000000#32))) bitsLt_bf16_f32)
        (truncf (F := Ideal) .bf16 x1 bitsLt_bf16_f32) (constant (F := Ideal) S5000x64 .f32 0x00000000#32) (ix2 p q)
      + broadcastTo S5000x64 (shapeCast S1x64 x2 shapeCasts_S1x64_S1x64) broadcasts_S1x64_S5000x64 (ix2 p q) = _
  rw [shapeCast_self, shapeCast_self, broadcastTo_1b_ab_apply, zero_word]
  exact congrArg (· + x2 (ix2 (0 : Fin 1) q))
    (matmul_plain_apply 5000 64 64 none
      (truncf (F := Ideal) .bf16 (maximumf (F := Ideal) x0 (broadcast S5000x64 (0 : EReal))) bitsLt_bf16_f32) (truncf (F := Ideal) .bf16 x1 bitsLt_bf16_f32) p q)

/-- The last body: the pooled rows times the output weights, plus the output bias row; no clamp. -/
theorem pay3_apply (x0 : Vec Ideal S500x64 .f32) (x1 : Vec Ideal S64x10 .f32) (x2 : Vec Ideal S1x10 .f32)
    (p : Fin 500) (q : Fin 10) :
    k3_pay1 (F := Ideal) x0 x1 x2 (ix2 p q) = (∑ k : Fin 64, x0 (ix2 p k) * x1 (ix2 k q)) + x2 (ix2 (0 : Fin 1) q) := by
  unfold k3_pay1
  show FloatOps.matmul (F := Ideal) dot_S500x64_S64x10_S500x10_1_0_0_1_n_n none
        (truncf (F := Ideal) .bf16 (shapeCast S500x64 x0 shapeCasts_S500x64_S500x64) bitsLt_bf16_f32)
        (truncf (F := Ideal) .bf16 x1 bitsLt_bf16_f32) (constant (F := Ideal) S500x10 .f32 0x00000000#32) (ix2 p q)
      + broadcastTo S500x10 (shapeCast S1x10 x2 shapeCasts_S1x10_S1x10) broadcasts_S1x10_S500x10 (ix2 p q) = _
  rw [shapeCast_self, shapeCast_self, broadcastTo_1b_ab_apply]
  exact congrArg (· + x2 (ix2 (0 : Fin 1) q))
    (matmul_plain_apply 500 64 10 none (truncf (F := Ideal) .bf16 x0 bitsLt_bf16_f32) (truncf (F := Ideal) .bf16 x1 bitsLt_bf16_f32) p q)

end Cert.KernelIdeal.Bodies

end
-- ==== Proof.Layer0.lean ====
/-
  Launch 0 of the program: what its output array holds when the launch ends.
  The grid has 10 points; point `t` takes rows 5000·t … 5000·t + 4999 of the input, the whole weight matrix and the bias row,
  and writes the same rows of the output. The 10 row blocks tile the output.
  So the array ends as ONE function of the three arrays the launch finds: `affine x w b`, the rows times the weights plus the bias row.
  Stated at any contents `V` of the buffers at the launch's entry.
-/
import proofs.«164278_j37211596652978_1_alg».proof.Proof.Gen.KernelIdeal.Frame
import proofs.«164278_j37211596652978_1_alg».proof.Proof.Bodies
import proofs.«164278_j37211596652978_1_alg».proof.Proof.Linear
import Idealize.ShloMosaic.Lib.Pipeline.Value

set_option maxRecDepth 16384

noncomputable section

namespace Cert.KernelIdeal.Layer0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Bodies Cert.Linear

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input and the output move together along the rows, the weights and the bias
    stay put, and nothing moves along the columns. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every row block is some point's. -/
theorem index_onto : ∀ q0 : Fin 10, ∃ t : Fin cfg0.N, win0_3.index t = ![q0.val, 0] :=
  (by decide +kernel : ∀ q0 : Fin 10, ∃ t : Fin grid0.N, win0_3.index t = ![q0.val, 0])

/-- What point `t` writes back is block `t` of the whole-array function. -/
theorem flushed_eq (c : Dev nD) (t : Fin cfg0.N) :
    (dat0 V c).flushed 3 t = ((cfg0.win 3).blk t).view.read (Elt Ideal)
      (affine 50000 128 64 (V c main_arg0) (V c main_arg3) (V c main_v33)) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x64) origin,
    View.ld_unit_zero (S := S1x64) origin]
  obtain ⟨e0, e1, e2, e3, e4, e5, e6, e7⟩ := index_facts t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (ix2 p q)
    = affine 50000 128 64 (V c main_arg0) (V c main_arg3) (V c main_v33) (((cfg0.win 3).blk t).view.emb (ix2 p q))
  refine (pay0_apply _ _ _ p q).trans ?_
  have hp : p.val < 5000 := p.isLt
  have hout : ((cfg0.win 3).blk t).view.emb (ix2 p q) = ix2 (⟨win0_3.index t (0 : Fin 2) * 5000 + p.val, by omega⟩ : Fin 50000) q := by
    funext a; apply Fin.ext
    match a with
    | ⟨0, _⟩ => show win0_3.index t (0 : Fin 2) * 5000 + 1 * p.val = win0_3.index t (0 : Fin 2) * 5000 + p.val; omega
    | ⟨1, _⟩ => show win0_3.index t (1 : Fin 2) * 64 + 1 * q.val = q.val; omega
  rw [hout, affine_apply]
  have hrow : ∀ k : Fin 128, ((cfg0.win 0).blk t).view.emb (ix2 p k) = ix2 (⟨win0_3.index t (0 : Fin 2) * 5000 + p.val, by omega⟩ : Fin 50000) k := fun k => by
    funext a; apply Fin.ext
    match a with
    | ⟨0, _⟩ => show win0_0.index t (0 : Fin 2) * 5000 + 1 * p.val = win0_3.index t (0 : Fin 2) * 5000 + p.val; omega
    | ⟨1, _⟩ => show win0_0.index t (1 : Fin 2) * 128 + 1 * k.val = k.val; omega
  have hcol : ∀ k : Fin 128, ((cfg0.win 1).blk t).view.emb (ix2 k q) = ix2 k q := fun k => by
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  have hbias : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 64 + 1 * q.val = q.val; omega
  refine congrArg₂ (· + ·) (Finset.sum_congr rfl fun k _ => ?_) ?_
  · have hx : iblk0 V c 0 t (ix2 p k) = V c main_arg0 (ix2 (⟨win0_3.index t (0 : Fin 2) * 5000 + p.val, by omega⟩ : Fin 50000) k) := congrArg (V c main_arg0) (hrow k)
    have hw : iblk0 V c 1 t (ix2 k q) = V c main_arg3 (ix2 k q) := congrArg (V c main_arg3) (hcol k)
    rw [hx, hw]
  · exact congrArg (V c main_v33) hbias

/-- An index of the output lies in point `t`'s block iff each coordinate lies in the block's range on its axis. -/
theorem mem_blk (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v34).slice (win0_3.rect t)).set ↔ _
  rw [View.set_slice_whole, Rect.mem_set_unit]
  exact Iff.rfl

/-- The blocks cover the output: row `r` lies in the block of point `r / 5000`. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array when the launch ends. -/
theorem array_eq (c : Dev nD) : (dat0 V c).arrAt 3 cfg0.N
    = affine 50000 128 64 (V c main_arg0) (V c main_arg3) (V c main_v33) :=
  (dat0 V c).arrAt_eq_of_cover 3 _ (fun t _ => flushed_eq V c t) cover

end Cert.KernelIdeal.Layer0

end
-- ==== Proof.Layer1.lean ====
/-
  Launch 1 of the program: what its output array holds when the launch ends.
  The grid has 10 points; point `t` takes rows 5000·t … 5000·t + 4999 of the input, the whole weight matrix and the bias row,
  and writes the same rows of the output. The 10 row blocks tile the output.
  So the array ends as ONE function of the three arrays the launch finds: `clampAffine x w b`, the rows clamped below at zero, times the weights, plus the bias row.
  Stated at any contents `V` of the buffers at the launch's entry.
-/
import proofs.«164278_j37211596652978_1_alg».proof.Proof.Gen.KernelIdeal.Frame
import proofs.«164278_j37211596652978_1_alg».proof.Proof.Bodies
import proofs.«164278_j37211596652978_1_alg».proof.Proof.Linear
import Idealize.ShloMosaic.Lib.Pipeline.Value

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Bodies Cert.Linear

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input and the output move together along the rows, the weights and the bias
    stay put, and nothing moves along the columns. -/
theorem index_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every row block is some point's. -/
theorem index_onto : ∀ q0 : Fin 10, ∃ t : Fin cfg1.N, win1_3.index t = ![q0.val, 0] :=
  (by decide +kernel : ∀ q0 : Fin 10, ∃ t : Fin grid1.N, win1_3.index t = ![q0.val, 0])

/-- What point `t` writes back is block `t` of the whole-array function. -/
theorem flushed_eq (c : Dev nD) (t : Fin cfg1.N) :
    (dat1 V c).flushed 3 t = ((cfg1.win 3).blk t).view.read (Elt Ideal)
      (clampAffine 50000 64 64 (V c main_v47) (V c main_arg4) (V c main_v48)) := by
  show (cfg1.win 3).cut (grid1.coords t) ((dat1 V c).after 3 t) = _
  rw [after1_3]
  unfold out1_3
  rw [View.canon_unit_zero origin]
  simp only [View.ld_unit_zero (S := S5000x64) origin, View.ld_unit_zero (S := S64x64) origin,
    View.ld_unit_zero (S := S1x64) origin]
  obtain ⟨e0, e1, e2, e3, e4, e5, e6, e7⟩ := index_facts t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (ix2 p q)
    = clampAffine 50000 64 64 (V c main_v47) (V c main_arg4) (V c main_v48) (((cfg1.win 3).blk t).view.emb (ix2 p q))
  refine (pay1_apply _ _ _ p q).trans ?_
  have hp : p.val < 5000 := p.isLt
  have hout : ((cfg1.win 3).blk t).view.emb (ix2 p q) = ix2 (⟨win1_3.index t (0 : Fin 2) * 5000 + p.val, by omega⟩ : Fin 50000) q := by
    funext a; apply Fin.ext
    match a with
    | ⟨0, _⟩ => show win1_3.index t (0 : Fin 2) * 5000 + 1 * p.val = win1_3.index t (0 : Fin 2) * 5000 + p.val; omega
    | ⟨1, _⟩ => show win1_3.index t (1 : Fin 2) * 64 + 1 * q.val = q.val; omega
  rw [hout, clampAffine_apply]
  have hrow : ∀ k : Fin 64, ((cfg1.win 0).blk t).view.emb (ix2 p k) = ix2 (⟨win1_3.index t (0 : Fin 2) * 5000 + p.val, by omega⟩ : Fin 50000) k := fun k => by
    funext a; apply Fin.ext
    match a with
    | ⟨0, _⟩ => show win1_0.index t (0 : Fin 2) * 5000 + 1 * p.val = win1_3.index t (0 : Fin 2) * 5000 + p.val; omega
    | ⟨1, _⟩ => show win1_0.index t (1 : Fin 2) * 64 + 1 * k.val = k.val; omega
  have hcol : ∀ k : Fin 64, ((cfg1.win 1).blk t).view.emb (ix2 k q) = ix2 k q := fun k => by
    funext a; apply Fin.ext
    match a with
    | ⟨0, _⟩ => show win1_1.index t (0 : Fin 2) * 64 + 1 * k.val = k.val; omega
    | ⟨1, _⟩ => show win1_1.index t (1 : Fin 2) * 64 + 1 * q.val = q.val; omega
  have hbias : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 64 + 1 * q.val = q.val; omega
  refine congrArg₂ (· + ·) (Finset.sum_congr rfl fun k _ => ?_) ?_
  · have hx : iblk1 V c 0 t (ix2 p k) = V c main_v47 (ix2 (⟨win1_3.index t (0 : Fin 2) * 5000 + p.val, by omega⟩ : Fin 50000) k) := congrArg (V c main_v47) (hrow k)
    have hw : iblk1 V c 1 t (ix2 k q) = V c main_arg4 (ix2 k q) := congrArg (V c main_arg4) (hcol k)
    rw [hx, hw]
  · exact congrArg (V c main_v48) hbias

/-- An index of the output lies in point `t`'s block iff each coordinate lies in the block's range on its axis. -/
theorem mem_blk (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v49).slice (win1_3.rect t)).set ↔ _
  rw [View.set_slice_whole, Rect.mem_set_unit]
  exact Iff.rfl

/-- The blocks cover the output: row `r` lies in the block of point `r / 5000`. -/
theorem cover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array when the launch ends. -/
theorem array_eq (c : Dev nD) : (dat1 V c).arrAt 3 cfg1.N
    = clampAffine 50000 64 64 (V c main_v47) (V c main_arg4) (V c main_v48) :=
  (dat1 V c).arrAt_eq_of_cover 3 _ (fun t _ => flushed_eq V c t) cover

end Cert.KernelIdeal.Layer1

end
-- ==== Proof.Layer2.lean ====
/-
  Launch 2 of the program: what its output array holds when the launch ends.
  The grid has 10 points; point `t` takes rows 5000·t … 5000·t + 4999 of the input, the whole weight matrix and the bias row,
  and writes the same rows of the output. The 10 row blocks tile the output.
  So the array ends as ONE function of the three arrays the launch finds: `clampAffine x w b`, the rows clamped below at zero, times the weights, plus the bias row.
  Stated at any contents `V` of the buffers at the launch's entry.
-/
import proofs.«164278_j37211596652978_1_alg».proof.Proof.Gen.KernelIdeal.Frame
import proofs.«164278_j37211596652978_1_alg».proof.Proof.Bodies
import proofs.«164278_j37211596652978_1_alg».proof.Proof.Linear
import Idealize.ShloMosaic.Lib.Pipeline.Value

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Bodies Cert.Linear

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input and the output move together along the rows, the weights and the bias
    stay put, and nothing moves along the columns. -/
theorem index_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every row block is some point's. -/
theorem index_onto : ∀ q0 : Fin 10, ∃ t : Fin cfg2.N, win2_3.index t = ![q0.val, 0] :=
  (by decide +kernel : ∀ q0 : Fin 10, ∃ t : Fin grid2.N, win2_3.index t = ![q0.val, 0])

/-- What point `t` writes back is block `t` of the whole-array function. -/
theorem flushed_eq (c : Dev nD) (t : Fin cfg2.N) :
    (dat2 V c).flushed 3 t = ((cfg2.win 3).blk t).view.read (Elt Ideal)
      (clampAffine 50000 64 64 (V c main_v62) (V c main_arg5) (V c main_v63)) := by
  show (cfg2.win 3).cut (grid2.coords t) ((dat2 V c).after 3 t) = _
  rw [after2_3]
  unfold out2_3
  rw [View.canon_unit_zero origin]
  simp only [View.ld_unit_zero (S := S5000x64) origin, View.ld_unit_zero (S := S64x64) origin,
    View.ld_unit_zero (S := S1x64) origin]
  obtain ⟨e0, e1, e2, e3, e4, e5, e6, e7⟩ := index_facts t
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (iblk2 V c 2 t) (ix2 p q)
    = clampAffine 50000 64 64 (V c main_v62) (V c main_arg5) (V c main_v63) (((cfg2.win 3).blk t).view.emb (ix2 p q))
  refine (pay2_apply _ _ _ p q).trans ?_
  have hp : p.val < 5000 := p.isLt
  have hout : ((cfg2.win 3).blk t).view.emb (ix2 p q) = ix2 (⟨win2_3.index t (0 : Fin 2) * 5000 + p.val, by omega⟩ : Fin 50000) q := by
    funext a; apply Fin.ext
    match a with
    | ⟨0, _⟩ => show win2_3.index t (0 : Fin 2) * 5000 + 1 * p.val = win2_3.index t (0 : Fin 2) * 5000 + p.val; omega
    | ⟨1, _⟩ => show win2_3.index t (1 : Fin 2) * 64 + 1 * q.val = q.val; omega
  rw [hout, clampAffine_apply]
  have hrow : ∀ k : Fin 64, ((cfg2.win 0).blk t).view.emb (ix2 p k) = ix2 (⟨win2_3.index t (0 : Fin 2) * 5000 + p.val, by omega⟩ : Fin 50000) k := fun k => by
    funext a; apply Fin.ext
    match a with
    | ⟨0, _⟩ => show win2_0.index t (0 : Fin 2) * 5000 + 1 * p.val = win2_3.index t (0 : Fin 2) * 5000 + p.val; omega
    | ⟨1, _⟩ => show win2_0.index t (1 : Fin 2) * 64 + 1 * k.val = k.val; omega
  have hcol : ∀ k : Fin 64, ((cfg2.win 1).blk t).view.emb (ix2 k q) = ix2 k q := fun k => by
    funext a; apply Fin.ext
    match a with
    | ⟨0, _⟩ => show win2_1.index t (0 : Fin 2) * 64 + 1 * k.val = k.val; omega
    | ⟨1, _⟩ => show win2_1.index t (1 : Fin 2) * 64 + 1 * q.val = q.val; omega
  have hbias : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 64 + 1 * q.val = q.val; omega
  refine congrArg₂ (· + ·) (Finset.sum_congr rfl fun k _ => ?_) ?_
  · have hx : iblk2 V c 0 t (ix2 p k) = V c main_v62 (ix2 (⟨win2_3.index t (0 : Fin 2) * 5000 + p.val, by omega⟩ : Fin 50000) k) := congrArg (V c main_v62) (hrow k)
    have hw : iblk2 V c 1 t (ix2 k q) = V c main_arg5 (ix2 k q) := congrArg (V c main_arg5) (hcol k)
    rw [hx, hw]
  · exact congrArg (V c main_v63) hbias

/-- An index of the output lies in point `t`'s block iff each coordinate lies in the block's range on its axis. -/
theorem mem_blk (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v64).slice (win2_3.rect t)).set ↔ _
  rw [View.set_slice_whole, Rect.mem_set_unit]
  exact Iff.rfl

/-- The blocks cover the output: row `r` lies in the block of point `r / 5000`. -/
theorem cover (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := index_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The output array when the launch ends. -/
theorem array_eq (c : Dev nD) : (dat2 V c).arrAt 3 cfg2.N
    = clampAffine 50000 64 64 (V c main_v62) (V c main_arg5) (V c main_v63) :=
  (dat2 V c).arrAt_eq_of_cover 3 _ (fun t _ => flushed_eq V c t) cover

end Cert.KernelIdeal.Layer2

end
-- ==== Proof.Layer3.lean ====
/-
  Launch 3 of the program: what its output array holds when the launch ends.
  The grid has one point, whose blocks are the whole arrays.
  So the array ends as ONE function of the three arrays the launch finds: `affine x w b`, the pooled rows times the output weights plus the output bias row.
  Stated at any contents `V` of the buffers at the launch's entry.
-/
import proofs.«164278_j37211596652978_1_alg».proof.Proof.Gen.KernelIdeal.Frame
import proofs.«164278_j37211596652978_1_alg».proof.Proof.Bodies
import proofs.«164278_j37211596652978_1_alg».proof.Proof.Linear
import Idealize.ShloMosaic.Lib.Pipeline.Value

set_option maxRecDepth 16384

noncomputable section

namespace Cert.KernelIdeal.Layer3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Bodies Cert.Linear

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input and the output move together along the rows, the weights and the bias
    stay put, and nothing moves along the columns. -/
theorem index_facts : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 0 :=
  (by decide +kernel : ∀ t : Fin grid3.N, _)

/-- Every row block is some point's. -/
theorem index_onto : ∀ q0 : Fin 1, ∃ t : Fin cfg3.N, win3_3.index t = ![q0.val, 0] :=
  (by decide +kernel : ∀ q0 : Fin 1, ∃ t : Fin grid3.N, win3_3.index t = ![q0.val, 0])

/-- What point `t` writes back is block `t` of the whole-array function. -/
theorem flushed_eq (c : Dev nD) (t : Fin cfg3.N) :
    (dat3 V c).flushed 3 t = ((cfg3.win 3).blk t).view.read (Elt Ideal)
      (affine 500 64 10 (V c main_v89) (V c main_arg6) (V c main_v90)) := by
  show (cfg3.win 3).cut (grid3.coords t) ((dat3 V c).after 3 t) = _
  rw [after3_3]
  unfold out3_3
  rw [View.canon_unit_zero origin]
  simp only [View.ld_unit_zero (S := S500x64) origin, View.ld_unit_zero (S := S64x10) origin,
    View.ld_unit_zero (S := S1x10) origin]
  obtain ⟨e0, e1, e2, e3, e4, e5, e6, e7⟩ := index_facts t
  funext j
  obtain ⟨p, q, rfl⟩ : ∃ (p : Fin 500) (q : Fin 10), j = ix2 p q := ⟨j 0, j 1, eq_ix2 j⟩
  show k3_pay1 (F := Ideal) (iblk3 V c 0 t) (iblk3 V c 1 t) (iblk3 V c 2 t) (ix2 p q)
    = affine 500 64 10 (V c main_v89) (V c main_arg6) (V c main_v90) (((cfg3.win 3).blk t).view.emb (ix2 p q))
  refine (pay3_apply _ _ _ p q).trans ?_
  have hp : p.val < 500 := p.isLt
  have hout : ((cfg3.win 3).blk t).view.emb (ix2 p q) = ix2 (⟨win3_3.index t (0 : Fin 2) * 500 + p.val, by omega⟩ : Fin 500) q := by
    funext a; apply Fin.ext
    match a with
    | ⟨0, _⟩ => show win3_3.index t (0 : Fin 2) * 500 + 1 * p.val = win3_3.index t (0 : Fin 2) * 500 + p.val; omega
    | ⟨1, _⟩ => show win3_3.index t (1 : Fin 2) * 10 + 1 * q.val = q.val; omega
  rw [hout, affine_apply]
  have hrow : ∀ k : Fin 64, ((cfg3.win 0).blk t).view.emb (ix2 p k) = ix2 (⟨win3_3.index t (0 : Fin 2) * 500 + p.val, by omega⟩ : Fin 500) k := fun k => by
    funext a; apply Fin.ext
    match a with
    | ⟨0, _⟩ => show win3_0.index t (0 : Fin 2) * 500 + 1 * p.val = win3_3.index t (0 : Fin 2) * 500 + p.val; omega
    | ⟨1, _⟩ => show win3_0.index t (1 : Fin 2) * 64 + 1 * k.val = k.val; omega
  have hcol : ∀ k : Fin 64, ((cfg3.win 1).blk t).view.emb (ix2 k q) = ix2 k q := fun k => by
    funext a; apply Fin.ext
    match a with
    | ⟨0, _⟩ => show win3_1.index t (0 : Fin 2) * 64 + 1 * k.val = k.val; omega
    | ⟨1, _⟩ => show win3_1.index t (1 : Fin 2) * 10 + 1 * q.val = q.val; omega
  have hbias : ((cfg3.win 2).blk t).view.emb (ix2 (0 : Fin 1) q) = ix2 (0 : Fin 1) q := by
    funext a; apply Fin.ext
    match a with
    | ⟨0, _⟩ => show win3_2.index t (0 : Fin 2) * 1 + 1 * 0 = 0; omega
    | ⟨1, _⟩ => show win3_2.index t (1 : Fin 2) * 10 + 1 * q.val = q.val; omega
  refine congrArg₂ (· + ·) (Finset.sum_congr rfl fun k _ => ?_) ?_
  · have hx : iblk3 V c 0 t (ix2 p k) = V c main_v89 (ix2 (⟨win3_3.index t (0 : Fin 2) * 500 + p.val, by omega⟩ : Fin 500) k) := congrArg (V c main_v89) (hrow k)
    have hw : iblk3 V c 1 t (ix2 k q) = V c main_arg6 (ix2 k q) := congrArg (V c main_arg6) (hcol k)
    rw [hx, hw]
  · exact congrArg (V c main_v90) hbias

/-- An index of the output lies in point `t`'s block iff each coordinate lies in the block's range on its axis. -/
theorem mem_blk (t : Fin cfg3.N) (i : S500x10.Idx) :
    i ∈ ((cfg3.win 3).blk t).view.set ↔ ∀ a : Fin 2, win3_3.index t a * S500x10.size a ≤ (i a).val
      ∧ (i a).val < win3_3.index t a * S500x10.size a + S500x10.size a := by
  show i ∈ ((View.whole main_v91).slice (win3_3.rect t)).set ↔ _
  rw [View.set_slice_whole, Rect.mem_set_unit]
  exact Iff.rfl

/-- The blocks cover the output: row `r` lies in the block of point `r / 500`. -/
theorem cover (i : S500x10.Idx) :
    ∃ t : Fin cfg3.N, (cfg3.win 3).flush t = true ∧ i ∈ ((cfg3.win 3).blk t).view.set := by
  have hi0 : (i 0).val < 500 := (i 0).isLt
  have hi1 : (i 1).val < 10 := (i 1).isLt
  obtain ⟨t, ht⟩ := index_onto ⟨(i 0).val / 500, by omega⟩
  have q0 : win3_3.index t (0 : Fin 2) = (i 0).val / 500 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 500 ≤ (i 0).val ∧ (i 0).val < win3_3.index t (0 : Fin 2) * 500 + 500; omega
  | ⟨1, _⟩ => show win3_3.index t (1 : Fin 2) * 10 ≤ (i 1).val ∧ (i 1).val < win3_3.index t (1 : Fin 2) * 10 + 10; omega

/-- The output array when the launch ends. -/
theorem array_eq (c : Dev nD) : (dat3 V c).arrAt 3 cfg3.N
    = affine 500 64 10 (V c main_v89) (V c main_arg6) (V c main_v90) :=
  (dat3 V c).arrAt_eq_of_cover 3 _ (fun t _ => flushed_eq V c t) cover

end Cert.KernelIdeal.Layer3

end
-- ==== Proof.Bridge.lean ====
/-
  The idealized kernel program's result is the reference's last stage, as one function of the eight argument arrays.
  Walk the program's segments in order, naming what each buffer that matters holds at each boundary by the reference stage
  that computes the same thing:
  * before the first launch the host computes the edge sources, the edge destinations and the edge weights from the edge
    array, by the operations the reference applies; the three zero bias vectors are zero;
  * a launch's output is `affine` / `clampAffine` of the arrays it finds, which with a zero bias row is the reference's
    matrix product (of the clamp of the previous aggregate, for the second and third layers);
  * after each launch the host aggregates the launch's output over the edges, by the reference's operations on the same
    edge lists and weights; after the third it also pools the rows by graph and divides by the clamped counts;
  * the last launch adds the output bias, laid out as one row, to the pooled rows times the output weights: the reference's
    last line.
  No step uses more than "adding zero changes nothing" and "the matrix product at an entry is one sum"; nothing here needs the
  inputs to be finite.
-/
import proofs.«164278_j37211596652978_1_alg».proof.Proof.Gen.KernelIdeal.Frame
import proofs.«164278_j37211596652978_1_alg».proof.Proof.Carry
import proofs.«164278_j37211596652978_1_alg».proof.Proof.EdgeData
import proofs.«164278_j37211596652978_1_alg».proof.Proof.Layer0
import proofs.«164278_j37211596652978_1_alg».proof.Proof.Layer1
import proofs.«164278_j37211596652978_1_alg».proof.Proof.Layer2
import proofs.«164278_j37211596652978_1_alg».proof.Proof.Layer3
import proofs.«164278_j37211596652978_1_alg».proof.Proof.Stages
import Idealize.ShloMosaic.Lib.StableHlo.Run
import Idealize.ShloMosaic.Lib.ValueLayout

set_option maxRecDepth 16384

noncomputable section

namespace Cert.KernelIdeal.Bridge

open Idealize.ShloMosaic Idealize.ShloMosaic.TcCoe Idealize.ShloMosaic.ValueIdx Idealize.SL.Sem Idealize.ShloMosaic.StableHlo
open Cert.KernelIdeal Cert.KernelIdeal.Gen Cert.KernelIdeal.Carry Cert.KernelIdeal.EdgeData Cert.Linear
open Cert.ReferenceIdeal.ReadP Cert.ReferenceIdeal.Stages

variable (m : (ℓ : Loc nD τ sig) → Buf (Elt Ideal) ℓ) (ρ : Dev nD → PrngReg)

/-- The eight argument arrays as launched. -/
abbrev feat (c : Dev nD) := m ((c : Thread nD τ).loc main_arg0)
abbrev gids (c : Dev nD) := m ((c : Thread nD τ).loc main_arg2)
abbrev wt1 (c : Dev nD) := m ((c : Thread nD τ).loc main_arg3)
abbrev wt2 (c : Dev nD) := m ((c : Thread nD τ).loc main_arg4)
abbrev wt3 (c : Dev nD) := m ((c : Thread nD τ).loc main_arg5)
abbrev wtOut (c : Dev nD) := m ((c : Thread nD τ).loc main_arg6)
abbrev biasOut (c : Dev nD) := m ((c : Thread nD τ).loc main_arg7)

/-! ## The first layer -/

/-- The first launch's output is the reference's first matrix product. -/
theorem layer1_out (c : Dev nD) :
    W4 m ρ c (Proc.devRef .tc main_v34) = val_main_v4 (F := Ideal) (feat m c) (wt1 m c) := by
  refine ((W4_arr m ρ c 3).trans (Layer0.array_eq (V3 m ρ) c)).trans ?_
  have e0 : V3 m ρ c main_arg0 = feat m c := arg0_at3 m ρ c
  have e3 : V3 m ρ c main_arg3 = wt1 m c := arg3_at3 m ρ c
  rw [e0, e3]
  exact stage4_of_zero_bias _ _ _ (bias1_zero m ρ c)

set_option maxHeartbeats 1000000 in
/-- Aggregated over the edges it is the reference's first aggregate. -/
theorem agg1_eq (c : Dev nD) :
    W5 m ρ c (Proc.devRef .tc main_v47) = val_main_v43 (F := Ideal) (feat m c) (edges m c) (wt1 m c) := by
  have h34 := layer1_out m ρ c
  have h5 := (v5_at4 m ρ c).trans (sources_eq m ρ c)
  have h6 := (v6_at4 m ρ c).trans (dests_eq m ρ c)
  have h29 := (v29_at4 m ρ c).trans (weights_eq m ρ c)
  show StableHlo.after hostOps1 (W4 m ρ c) (Proc.devRef .tc main_v47) = _
  generalize W4 m ρ c = X at h34 h5 h6 h29 ⊢
  simp only [hostOps1]
  after_results
  rw [h34, h5, h6, h29]
  unfold val_main_v43 val_main_v41 val_main_cst_8 val_main_v42 val_main_v40 val_main_v37 val_main_v36 val_main_v35 val_main_v32 val_main_v31 val_main_c_6 val_main_v34 val_main_v33 val_main_c_7 val_main_v39 val_main_v38
  rfl

/-- The second launch's bias row is zero. -/
theorem bias2_zero (c : Dev nD) (q : Fin 64) : V5 m ρ c main_v48 (ix2 (0 : Fin 1) q) = (0 : EReal) := by
  have h : W5 m ρ c (Proc.devRef .tc main_v48) = shapeCast S1x64 (W4 m ρ c (Proc.devRef .tc main_v31)) shapeCasts_S64_S1x64 := by
    show StableHlo.after hostOps1 (W4 m ρ c) (Proc.devRef .tc main_v48) = _
    generalize W4 m ρ c = X
    simp only [hostOps1]
    after_results <;> rfl
  show W5 m ρ c (Proc.devRef .tc main_v48) (ix2 (0 : Fin 1) q) = (0 : EReal)
  rw [h]
  exact zeroRow_apply _ ((v31_at4 m ρ c).trans (zero2_eq m ρ c)) q

/-! ## The second layer -/

/-- The second launch's output is the reference's second matrix product, of the clamp of the first aggregate. -/
theorem layer2_out (c : Dev nD) :
    W6 m ρ c (Proc.devRef .tc main_v49) = val_main_v45 (F := Ideal) (feat m c) (edges m c) (wt1 m c) (wt2 m c) := by
  refine ((W6_arr m ρ c 3).trans (Layer1.array_eq (V5 m ρ) c)).trans ?_
  have ex : V5 m ρ c main_v47 = val_main_v43 (F := Ideal) (feat m c) (edges m c) (wt1 m c) := agg1_eq m ρ c
  have ew : V5 m ρ c main_arg4 = wt2 m c := arg4_at5 m ρ c
  rw [ex, ew]
  exact stage45_of_zero_bias _ _ _ _ _ (bias2_zero m ρ c)

set_option maxHeartbeats 1000000 in
/-- Aggregated over the edges it is the reference's second aggregate. -/
theorem agg2_eq (c : Dev nD) :
    W7 m ρ c (Proc.devRef .tc main_v62) = val_main_v84 (F := Ideal) (feat m c) (edges m c) (wt1 m c) (wt2 m c) := by
  have h49 := layer2_out m ρ c
  have h5 := ((v5_at6 m ρ c).trans (sources_eq m ρ c)).trans (src2 (edges m c)).symm
  have h6 := ((v6_at6 m ρ c).trans (dests_eq m ρ c)).trans (dst2 (edges m c)).symm
  have h29 := ((v29_at6 m ρ c).trans (weights_eq m ρ c)).trans (wgt2 (edges m c)).symm
  show StableHlo.after hostOps2 (W6 m ρ c) (Proc.devRef .tc main_v62) = _
  generalize W6 m ρ c = X at h49 h5 h6 h29 ⊢
  simp only [hostOps2]
  after_results
  rw [h49, h5, h6, h29]
  unfold val_main_v84 val_main_v82 val_main_cst_19 val_main_v83 val_main_v81 val_main_v78 val_main_v77 val_main_v76 val_main_v73 val_main_v72 val_main_c_17 val_main_v75 val_main_v74 val_main_c_18 val_main_v80 val_main_v79
  rfl

/-- The third launch's bias row is zero. -/
theorem bias3_zero (c : Dev nD) (q : Fin 64) : V7 m ρ c main_v63 (ix2 (0 : Fin 1) q) = (0 : EReal) := by
  have h : W7 m ρ c (Proc.devRef .tc main_v63) = shapeCast S1x64 (W6 m ρ c (Proc.devRef .tc main_v32)) shapeCasts_S64_S1x64 := by
    show StableHlo.after hostOps2 (W6 m ρ c) (Proc.devRef .tc main_v63) = _
    generalize W6 m ρ c = X
    simp only [hostOps2]
    after_results <;> rfl
  show W7 m ρ c (Proc.devRef .tc main_v63) (ix2 (0 : Fin 1) q) = (0 : EReal)
  rw [h]
  exact zeroRow_apply _ ((v32_at6 m ρ c).trans (zero3_eq m ρ c)) q

/-! ## The third layer and the pooling -/

/-- The third launch's output is the reference's third matrix product, of the clamp of the second aggregate. -/
theorem layer3_out (c : Dev nD) :
    W8 m ρ c (Proc.devRef .tc main_v64)
      = val_main_v86 (F := Ideal) (feat m c) (edges m c) (wt1 m c) (wt2 m c) (wt3 m c) := by
  refine ((W8_arr m ρ c 3).trans (Layer2.array_eq (V7 m ρ) c)).trans ?_
  have ex : V7 m ρ c main_v62 = val_main_v84 (F := Ideal) (feat m c) (edges m c) (wt1 m c) (wt2 m c) := agg2_eq m ρ c
  have ew : V7 m ρ c main_arg5 = wt3 m c := arg5_at7 m ρ c
  rw [ex, ew]
  exact stage86_of_zero_bias _ _ _ _ _ _ (bias3_zero m ρ c)

set_option maxHeartbeats 1000000 in
/-- Aggregated over the edges, summed by graph and divided by the clamped node counts it is the reference's pooled rows. -/
theorem pooled_eq (c : Dev nD) :
    W9 m ρ c (Proc.devRef .tc main_v89)
      = val_main_v137 (F := Ideal) (feat m c) (edges m c) (gids m c) (wt1 m c) (wt2 m c) (wt3 m c) := by
  have h64 := layer3_out m ρ c
  have h5 := ((v5_at8 m ρ c).trans (sources_eq m ρ c)).trans (src3 (edges m c)).symm
  have h6 := ((v6_at8 m ρ c).trans (dests_eq m ρ c)).trans (dst3 (edges m c)).symm
  have h29 := ((v29_at8 m ρ c).trans (weights_eq m ρ c)).trans (wgt3 (edges m c)).symm
  have h2 : W8 m ρ c (Proc.devRef .tc main_arg2) = gids m c := arg2_at8 m ρ c
  show StableHlo.after hostOps3 (W8 m ρ c) (Proc.devRef .tc main_v89) = _
  generalize W8 m ρ c = X at h64 h5 h6 h29 h2 ⊢
  simp only [hostOps3]
  after_results_simp
  rw [h64, h5, h6, h29, h2]
  unfold val_main_v137 val_main_v128 val_main_v126 val_main_cst_31 val_main_v127 val_main_v125 val_main_v123 val_main_cst_30 val_main_v124 val_main_v122 val_main_v119 val_main_v118 val_main_v117 val_main_v114 val_main_v113 val_main_c_28 val_main_v116 val_main_v115 val_main_c_29 val_main_v121 val_main_v120 val_main_v136 val_main_v135 val_main_v134 val_main_v132 val_main_v130 val_main_cst_33 val_main_v131 val_main_v129 val_main_cst_32 val_main_v133 val_main_cst_34
  rfl

/-- The last launch's bias row is the output bias. -/
theorem bias4_row (c : Dev nD) (q : Fin 10) : V9 m ρ c main_v90 (ix2 (0 : Fin 1) q) = biasOut m c (ix1 q) := by
  have h : W9 m ρ c (Proc.devRef .tc main_v90) = shapeCast S1x10 (W8 m ρ c (Proc.devRef .tc main_arg7)) shapeCasts_S10_S1x10 := by
    show StableHlo.after hostOps3 (W8 m ρ c) (Proc.devRef .tc main_v90) = _
    generalize W8 m ρ c = X
    simp only [hostOps3]
    after_results <;> rfl
  show W9 m ρ c (Proc.devRef .tc main_v90) (ix2 (0 : Fin 1) q) = biasOut m c (ix1 q)
  rw [h, shapeCast_a_1a_apply, arg7_at8 m ρ c]

/-! ## The result -/

/-- What the program returns: the reference's last stage of the eight argument arrays. -/
theorem result_eq (c : Dev nD) :
    W10 m ρ c (Proc.devRef .tc main_v91) = val_main_v141 (F := Ideal) (feat m c) (edges m c) (gids m c) (wt1 m c) (wt2 m c)
      (wt3 m c) (wtOut m c) (biasOut m c) := by
  refine ((W10_arr m ρ c 3).trans (Layer3.array_eq (V9 m ρ) c)).trans ?_
  have ex : V9 m ρ c main_v89
      = val_main_v137 (F := Ideal) (feat m c) (edges m c) (gids m c) (wt1 m c) (wt2 m c) (wt3 m c) := pooled_eq m ρ c
  have ew : V9 m ρ c main_arg6 = wtOut m c := arg6_at9 m ρ c
  rw [ex, ew]
  exact stage141_of_row_bias _ _ _ _ _ _ _ (biasOut m c) _ (bias4_row m ρ c)

end Cert.KernelIdeal.Bridge

end
-- ==== Proof.lean ====
/-
  A three-layer graph convolution network with mean pooling, as a Pallas program against its plain jnp reference: the two are
  equal over the extended reals, entry by entry, on every input.

  Both programs build the same edge lists (the given edges and one self loop per node), the same node degrees and the same
  edge weights `dinv[s] · dinv[d]`, by the same host operations on the edge array. Each layer is a linear map followed by the
  aggregate `segment_sum (h[s] · weight, d)`; between layers the values are clamped below at zero; at the end the node rows are
  averaged per graph and sent through a last linear map with a bias.

  The programs differ only in where the linear maps run. The reference takes them on the host as matrix products. The kernel
  program takes each in a kernel launch over blocks of rows: the block is cast to a narrower float format and back (the
  identity on the extended reals), multiplied into a zero accumulator (the plain matrix product: one sum per entry), and a bias
  row is added — a row of zeros in the three layers (adding zero changes no extended real, infinite ones included), the given
  output bias in the last map. The clamp that the reference applies to a layer's result the kernel program applies to the next
  launch's input rows: the same function at the same place in the data flow. The row blocks tile each output, so each launch
  leaves one whole-array function of what it found.

  So the claim needs no law that could fail at an infinite value, and the proof never opens the precondition.
  * `frame` of the two kernel programs is their generated frame; of the reference, its run with the result dropped.
  * `preserves` is `True`: the idealization rewrote no operation.
  * `algebraic`: both runs end at the reference's last stage of the argument arrays (Proof/Bridge.lean for the kernel
    program, segment by segment; the reference's run read back for the reference).
-/
import proofs.«164278_j37211596652978_1_alg».proof.Defs
import proofs.«164278_j37211596652978_1_alg».proof.Proof.Gen.Kernel
import proofs.«164278_j37211596652978_1_alg».proof.Proof.Gen.Kernel.Frame
import proofs.«164278_j37211596652978_1_alg».proof.Proof.Gen.KernelIdeal
import proofs.«164278_j37211596652978_1_alg».proof.Proof.Gen.KernelIdeal.Frame
import proofs.«164278_j37211596652978_1_alg».proof.Proof.Gen.ReferenceIdeal
import proofs.«164278_j37211596652978_1_alg».proof.Proof.Gen.Pre_finite_inputs
import proofs.«164278_j37211596652978_1_alg».proof.Proof.RefRead
import proofs.«164278_j37211596652978_1_alg».proof.Proof.KernelRun
import proofs.«164278_j37211596652978_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs, run from memories that agree on the arguments, end with the result buffer at the reference's last stage of
    the kernel program's argument arrays. -/
theorem algebraic : Cert.algebraic_KernelIdeal_ReferenceIdeal := by
  intro m ρ m' ρ' _ hagree
  refine ⟨fun c => Cert.ReferenceIdeal.ReadP.val_main_v141 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Bridge.result_eq m ρ c), (h c).2⟩)
      (Cert.KernelIdeal.Whole.run_result m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v141_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
